-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S8x2048x4096 : Shape := ⟨3, ![8, 2048, 4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_
  bcast_S_S8x2048x4096 : S_.BroadcastsInDim S8x2048x4096 (![] : Fin 0 → Fin S8x2048x4096.rank)
  reducesTo_S8x2048x4096_S_d0_1_2 : S8x2048x4096.ReducesTo [0, 1, 2] S_

variable [Facts]

def fn_part1 {F : FTy → Type} [FloatOps F] (main_arg5 : FVec F S8x2048x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S8x2048x4096 .f32 := Host.absf main_arg5
  let main_cst_6 : FVec F S_ .f32 := constant S_ .f32 0x7F800000#32
  let main_v20 : FVec F S8x2048x4096 .f32 := broadcastInDim S8x2048x4096 ![] bcast_S_S8x2048x4096 main_cst_6
  let main_v21 : IVec S8x2048x4096 1 := cmpf .olt main_v19 main_v20
  let main_c_7 : IVec S_ 1 := constantI S_ 1 1#1
  let main_v22 : IVec S_ 1 := (fun x v => Host.reduce IntOp.andi x v reducesTo_S8x2048x4096_S_d0_1_2 h_S_) main_v21 main_c_7
  let main_v23 : IVec S_ 1 := andi main_v18 main_v22
  main_v23

def fn {F : FTy → Type} [FloatOps F] (main_arg0 : IVec S4096x128x32 32) (main_arg1 : FVec F S4096x128 .f32) (main_arg2 : FVec F S4096x16 .f32) (main_arg3 : FVec F S16x4096 .f32) (main_arg4 : FVec F S4096 .f32) (main_arg5 : FVec F S8x2048x4096 .f32) : IVec S_ 1 :=
  let main_v0 : FVec F S4096x128 .f32 := Host.absf main_arg1
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S8x2048x4096 : Shape := ⟨3, ![8, 2048, 4096]⟩
abbrev S4096x4096 : Shape := ⟨2, ![4096, 4096]⟩
abbrev S128x128x32 : Shape := ⟨3, ![128, 128, 32]⟩
abbrev S128x128 : Shape := ⟨2, ![128, 128]⟩
abbrev S128x16 : Shape := ⟨2, ![128, 16]⟩
abbrev S128x4096 : Shape := ⟨2, ![128, 4096]⟩
abbrev S128x128x1 : Shape := ⟨3, ![128, 128, 1]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x128x32, .i32⟩
  | .hbm, ⟨1, _⟩ => ⟨S4096x128, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S8x2048x4096, .f32⟩
  | .hbm, ⟨6, _⟩ => ⟨S4096x4096, .bf16⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S8x2048x4096, .f32⟩
  | .local _ .vmem, ⟨0, _⟩ => ⟨S128x128x32, .i32⟩
  | .local _ .vmem, ⟨1, _⟩ => ⟨S128x128x32, .i32⟩
  | .local _ .vmem, ⟨2, _⟩ => ⟨S128x128, .f32⟩
  | .local _ .vmem, ⟨3, _⟩ => ⟨S128x128, .f32⟩
  | .local _ .vmem, ⟨4, _⟩ => ⟨S128x16, .f32⟩
  | .local _ .vmem, ⟨5, _⟩ => ⟨S128x16, .f32⟩
  | .local _ .vmem, ⟨6, _⟩ => ⟨S16x4096, .f32⟩
  | .local _ .vmem, ⟨7, _⟩ => ⟨S128x4096, .bf16⟩
  | .local _ .vmem, ⟨8, _⟩ => ⟨S128x4096, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x128x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S128x128x32_S128x128x32_0_0_0 : ∀ a, (![0, 0, 0] : Fin 3 → Nat) a + S128x128x32.size a ≤ S128x128x32.size a
  h_S128x128x32 : 0 < S128x128x32.numel
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  broadcasts_S128x128x1_S128x128x32 : S128x128x1.Broadcasts S128x128x32
  shapeCasts_S128x128x32_S128x4096 : S128x128x32.ShapeCasts S128x4096
  inb_S128x16_S128x16_0_0 : ∀ a, (![0, 0] : Fin 2 → Nat) a + S128x16.size a ≤ S128x16.size a
  h_S128x16 : 0 < S128x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S128x16_S16x4096_S128x4096_1_0_0_1_n_n_wf : DotDims.WF S128x16 S16x4096 S128x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x32.size a ≤ S4096x128x32.size a
  hwx0_0 : ∀ i : grid0.Coords, EltTy.bits .i32 = 32 ∨ (Rect.block (s := S4096x128x32) S128x128x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .f32 = 32 ∨ (Rect.block (s := S4096x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S4096x16.size a
  hwx0_2 : ∀ i : grid0.Coords, EltTy.bits .f32 = 32 ∨ (Rect.block (s := S4096x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .bf16 = 32 ∨ (Rect.block (s := S4096x4096) S128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .f32 = 32 ∨ (Rect.block (s := S16384x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x4096.size a
  hwx1_3 : ∀ i : grid1.Coords, EltTy.bits .f32 = 32 ∨ (Rect.block (s := S16384x4096) S1024x1024.size (cc1_transform_3 i) (hinb1_3 i)).WholeWords (EltTy.packing .f32)

variable [Facts₀]

def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S128x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S8x2048x4096 : Shape := ⟨3, ![8, 2048, 4096]⟩
abbrev S4096x128x1 : Shape := ⟨3, ![4096, 128, 1]⟩
abbrev S_ : Shape := ⟨0, ![]⟩
abbrev S4096x4096 : Shape := ⟨2, ![4096, 4096]⟩
abbrev S1x1x4096 : Shape := ⟨3, ![1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x128x32, .i32⟩
  | .hbm, ⟨1, _⟩ => ⟨S4096x128, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S8x2048x4096, .f32⟩
  | .hbm, ⟨6, _⟩ => ⟨S4096x128x1, .f32⟩
  | .hbm, ⟨7, _⟩ => ⟨S4096x128x32, .f32⟩
  | .hbm, ⟨8, _⟩ => ⟨S_, .f32⟩
  | .hbm, ⟨9, _⟩ => ⟨S4096x128x32, .f32⟩
  | .hbm, ⟨10, _⟩ => ⟨S4096x128x32, .f32⟩
  | .hbm, ⟨11, _⟩ => ⟨S4096x128x32, .f32⟩
  | .hbm, ⟨12, _⟩ => ⟨S4096x128x32, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8x2048x4096, .f32⟩
  | .hbm, ⟨20, _⟩ => ⟨S1x1x4096, .f32⟩
  | .hbm, ⟨21, _⟩ => ⟨S8x2048x4096, .f32⟩
  | .hbm, ⟨22, _⟩ => ⟨S8x2048x4096, .f32⟩
  | _, _ => ⟨S4096x128x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096x128_S4096x128x1_0_1 : S4096x128.BroadcastsInDim S4096x128x1 (![0, 1] : Fin 2 → Fin S4096x128x1.rank)
  bcast_S_S4096x128x32 : S_.BroadcastsInDim S4096x128x32 (![] : Fin 0 → Fin S4096x128x32.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S4096x16_S16x4096_S4096x4096_1_0_0_1_n_n_wf : DotDims.WF S4096x16 S16x4096 S4096x4096 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.K.Dequant.lean ====
/- Region 0 of @main: the dequantisation-and-patch kernel, as one pipeline of 32 grid points over
   row blocks of 128 rows. At each point the body reads its four input blocks whole (the quantised
   words, the per-block scales, the rows of the up-projection, and the whole down-projection, whose
   block never moves), and writes the whole 128 x 4096 output block once, at the payload of those
   four reads. This module states that half of the frame at a PARAMETER V, the buffer contents the
   TensorCore holds when the region is entered: each window's block at a point, the output block as
   a function of the four input blocks, the body's triple, the pipeline's proof data and the body
   obligation. Everything is generic in the float instance F. -/
import proofs.«176474_j44985487458785_2_alg».proof.Proof.Gen.Kernel.Launch
import proofs.«176474_j44985487458785_2_alg».proof.Proof.Gen.Kernel.Skeleton
import proofs.«176474_j44985487458785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0, the quantised words: its current staging buffer holds its block at every point, whether the pipeline fetched
    it there or not (where it did not, the block index has not moved since the last fetch and the
    body left the buffer alone). For any proof data whose array is V's and whose body leaves the
    block in place; the window is an input, never idle, and its blocks tile the array. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1, the scales: its current staging buffer holds its block at every point, whether the pipeline fetched
    it there or not (where it did not, the block index has not moved since the last fetch and the
    body left the buffer alone). For any proof data whose array is V's and whose body leaves the
    block in place; the window is an input, never idle, and its blocks tile the array. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2, the up-projection's rows: its current staging buffer holds its block at every point, whether the pipeline fetched
    it there or not (where it did not, the block index has not moved since the last fetch and the
    body left the buffer alone). For any proof data whose array is V's and whose body leaves the
    block in place; the window is an input, never idle, and its blocks tile the array. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Window 3, the down-projection (one block, fetched at the first point only): its current staging buffer holds its block at every point, whether the pipeline fetched
    it there or not (where it did not, the block index has not moved since the last fetch and the
    body left the buffer alone). For any proof data whose array is V's and whose body leaves the
    block in place; the window is an input, never idle, and its blocks tile the array. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole block -/

abbrev r0 : Rect S128x128x32 := Rect.unit (s := S128x128x32) ![0, 0, 0] S128x128x32.size inb_S128x128x32_S128x128x32_0_0_0
abbrev r1 : Rect S128x128 := Rect.unit (s := S128x128) ![0, 0] S128x128.size inb_S128x128_S128x128_0_0
abbrev r2 : Rect S128x16 := Rect.unit (s := S128x16) ![0, 0] S128x16.size inb_S128x16_S128x16_0_0
abbrev r3 : Rect S16x4096 := Rect.unit (s := S16x4096) ![0, 0] S16x4096.size inb_S16x4096_S16x4096_0_0
abbrev r4 : Rect S128x4096 := Rect.unit (s := S128x4096) ![0, 0] S128x4096.size inb_S128x4096_S128x4096_0_0

/-! ## What the body leaves in the output window's buffer -/

/-- The output block after the body, from the four input blocks: the one store as a piece over the
    whole block, at the payload of the four whole-block reads (scale times the recentred words, plus
    half the product of the two projections, rounded to the output format). -/
def out4 (x0 : Vec F S128x128x32 .i32) (x1 : Vec F S128x128 .f32) (x2 : Vec F S128x16 .f32) (x3 : Vec F S16x4096 .f32) : Vec F S128x4096 .bf16 :=
  View.canon [⟨r4, k0_pay1 (View.ld x0 r0) (View.ld x1 r1) (View.ld x2 r2) (View.ld x3 r3)⟩]

/-- The one store's rectangle is the whole block, so it covers every index of it. -/
theorem cover4 (p : Vec F S128x4096 .bf16) (y : S128x4096.Idx) :
    ∃ pc ∈ ([⟨r4, p⟩] : List (View.Piece (Elt F) S128x4096 .bf16)), y ∈ pc.1.set :=
  View.cover_of_tiled [⟨r4, p⟩] S128x4096.size (by rfl) y

/-! ## The body's triple -/

set_option maxHeartbeats 1000000 in
/-- The body on whole staging memrefs, the four inputs' at contents x0 .. x3 and the output's at
    anything, runs to a continuation that holds the inputs' as they were and the output's at out4 of
    them. -/
theorem sound_kernel (c : Dev nD) (E : Set ℕ) (i : grid0.Coords)
    (arg1 : Memref sig .tc .vmem S128x128x32 .i32) (harg1 : arg1.IsWhole) (arg2 : Memref sig .tc .vmem S128x128 .f32) (harg2 : arg2.IsWhole)
    (arg3 : Memref sig .tc .vmem S128x16 .f32) (harg3 : arg3.IsWhole) (arg4 : Memref sig .tc .vmem S16x4096 .f32) (harg4 : arg4.IsWhole)
    (arg5 : Memref sig .tc .vmem S128x4096 .bf16) (harg5 : arg5.IsWhole)
    (x0 : Vec F S128x128x32 .i32) (x1 : Vec F S128x128 .f32) (x2 : Vec F S128x16 .f32) (x3 : Vec F S16x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0_dequant_lora_kernel i arg1 harg1 arg2 harg2 arg3 harg3 arg4 harg4 arg5 harg5) K := by
  simp only [cc0_dequant_lora_kernel_eq_skeleton]; unfold cc0_dequant_lora_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of this pipeline on core c: the arrays as the region finds them; after the body
    at point t each input's buffer still at its block and the output's at out4 of the four input
    blocks; the invariant is the scoped rest and the generator register, untouched; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = out4 (iblk V c 0 t) (iblk V c 1 t) (iblk V c 2 t) (iblk V c 3 t) := by dsimp only [dat]

/-- Each input's current staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation, at a generic point -/

/-- What the body is called with at point t: the invariant, what the core owes, and each window's
    current staging memref at what the pipeline left in it, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the body's triple applies; the
    invariant and the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.MatmulBody.lean ====
/-
  The matmul region (the second pallas_call): out = x · wᵀ + bias over a 16 × 4 × 4 grid of 1024-blocks, the last
  grid axis the contraction. A VMEM accumulator is carried across the four points of that axis: set to zero at the
  first, increased by the block product at each, and written out (plus the bias row) at the fourth. This module states
  the body's behaviour in each of the three situations a point can be in (first / middle / last step of the
  contraction) as a Hoare triple on whole staging buffers; the pieces each buffer ends with are found by running the body.
-/
import proofs.«176474_j44985487458785_2_alg».proof.Proof.Gen.Kernel.Launch
import proofs.«176474_j44985487458785_2_alg».proof.Proof.Gen.Kernel.Skeleton
import proofs.«176474_j44985487458785_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, in closed form over the grid -/

/-- The accumulator is reset: the contraction coordinate is 0. -/
abbrev first (i : grid1.Coords) : Prop :=
  (Scalar.cmpi .ne (Scalar.extui (Scalar.cmpi .eq (BitVec.ofNat 32 (i 2).val) 0#32)) 0#32) = 1#1
/-- The block is written out: the contraction coordinate is 3. -/
abbrev last (i : grid1.Coords) : Prop := k1_cond2 i = 1#1

/-- In grid order the contraction coordinate is the point's number mod 4. -/
theorem first_iff : ∀ t : Fin cfg1.N, first (grid1.coords t) ↔ t.val % 4 = 0 :=
  (by decide +kernel : ∀ t : Fin grid1.N, first (grid1.coords t) ↔ t.val % 4 = 0)
theorem last_iff : ∀ t : Fin cfg1.N, last (grid1.coords t) ↔ t.val % 4 = 3 :=
  (by decide +kernel : ∀ t : Fin grid1.N, last (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last contraction step the output block is neither stored into nor written back. -/
theorem idle3 : ∀ t : Fin cfg1.N, ¬last (grid1.coords t) → cfg1.idle 3 (grid1.coords t) = true := by decide +kernel
theorem noFlush3 : ∀ t : Fin cfg1.N, ¬last (grid1.coords t) → (cfg1.win 3).flush t = false := by decide +kernel
theorem live3 : ∀ t : Fin cfg1.N, last (grid1.coords t) → cfg1.idle 3 (grid1.coords t) = false := by decide +kernel

/-! ## The memrefs the body is called with -/

abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev accM : Memref sig .tc .vmem S1024x1024 .f32 := Memref.whole cc1_scratch0
/-- One staging buffer of the output window and the accumulator, as views: contents are stated through them. -/
abbrev VO : View sig .tc .vmem S1024x1024 .f32 := (Memref.whole cc1_stg3_0 : Memref sig .tc .vmem S1024x1024 .f32).view
abbrev VS : View sig .tc .vmem S1024x1024 .f32 := accM.view

/-- The scoped buffers this region never touches: the other pallas_call's staging buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- Those buffers beside the accumulator in state `S`, in the order the launch enumerates the scoped buffers. -/
def scopedAt (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

theorem scopedAt_split (c : Dev nD) (S : sProp 𝕄) : scopedAt c S ⊢ iprop(others c ∗ S) := by
  unfold scopedAt others
  iintro ⟨H0, H1, H2, H3, H4, H5, H6, H7, H8, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

theorem scopedAt_join (c : Dev nD) (S : sProp 𝕄) : iprop(others c ∗ S) ⊢ scopedAt c S := by
  unfold scopedAt others
  iintro ⟨⟨H0, H1, H2, H3, H4, H5, H6, H7, H8⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- What the region's invariant holds besides the windows: the untouched scoped buffers, the accumulator at some
    contents, and the generator register. -/
theorem PhiA_eq (c : Dev nD) :
    (Pipeline.ΦA spec1 c : sProp 𝕄)
      = iprop(scopedAt c iprop(∃ d, owns (c : Thread nD τ) accM fullShare d) ∗ (∃ r, prngReg c r)) := by
  unfold Pipeline.ΦA scopedAt; rw [scopedRest1_eq]; simp only [accM, owns_whole]; try rfl

/-! ## The body in each situation -/

set_option maxHeartbeats 1000000 in
/-- FIRST step (accumulator reset, then increased; nothing written out): the pieces the accumulator ends with. -/
noncomputable def runFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i)
    (x0 : Vec F S1024x1024 .f32) (x1 : Vec F S1024x1024 .bf16) (x2 : Vec F S1x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- MIDDLE steps (accumulator increased; nothing written out), from the accumulator at `xs`. -/
noncomputable def runMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i)
    (x0 : Vec F S1024x1024 .f32) (x1 : Vec F S1024x1024 .bf16) (x2 : Vec F S1x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- LAST step (accumulator increased, then accumulator + bias stored into the output block), from the accumulator at
    `xs`: the pieces the output block and the accumulator end with. -/
noncomputable def runLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.R1

end
-- ==== Proof.K.Matmul.lean ====
/-
  The matmul region's proof data: what the accumulator and the output block hold after each grid point, by recursion on
  the point (the accumulator restarts at every fourth point and is otherwise the previous point's, increased by the
  point's block product), the region invariant that carries the accumulator from point to point, and the body
  obligation at a generic point by cases on the step of the contraction.
-/
import proofs.«176474_j44985487458785_2_alg».proof.Proof.K.MatmulBody

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (unfetched, the block index has not moved). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each situation leaves, read back -/

theorem coverFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i) (x0 : Vec F S1024x1024 .f32) (x1 : Vec F S1024x1024 .bf16) (x2 : Vec F S1x1024 .f32) (y : S1024x1024.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x1024.size (by sl_kernel_rfl) y

/-- The accumulator after a FIRST step. -/
def accFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i) (x0 : Vec F S1024x1024 .f32) (x1 : Vec F S1024x1024 .bf16) (x2 : Vec F S1x1024 .f32) : Vec F S1024x1024 .f32 :=
  VS.read (Elt F) (VS.writes (Elt F) VS.junk (runFirst c i arg3 harg3 arg4 harg4 arg5 harg5 arg6 harg6 arg7 harg7 hc0 hc1 x0 x1 x2).1)

theorem coverMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i) (x0 : Vec F S1024x1024 .f32) (x1 : Vec F S1024x1024 .bf16) (x2 : Vec F S1x1024 .f32) (xs : Vec F S1024x1024 .f32) (y : S1024x1024.Idx) :
    ∃ pc ∈ (runMid c i arg3 harg3 arg4 harg4 arg5 harg5 arg6 harg6 arg7 harg7 hc0 hc1 x0 x1 x2 xs).1, y ∈ pc.1.set :=
  View.cover_of_tiledL (runMid c i arg3 harg3 arg4 harg4 arg5 harg5 arg6 harg6 arg7 harg7 hc0 hc1 x0 x1 x2 xs).1 S1024x1024.size (by sl_kernel_rfl) y

/-- The accumulator after a MIDDLE step, from the accumulator `xs`. -/
def accMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i) (x0 : Vec F S1024x1024 .f32) (x1 : Vec F S1024x1024 .bf16) (x2 : Vec F S1x1024 .f32) (xs : Vec F S1024x1024 .f32) : Vec F S1024x1024 .f32 :=
  VS.read (Elt F) (VS.writes (Elt F) VS.junk (runMid c i arg3 harg3 arg4 harg4 arg5 harg5 arg6 harg6 arg7 harg7 hc0 hc1 x0 x1 x2 xs).1)

theorem coverLastAcc (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x1024.size (by sl_kernel_rfl) y

theorem coverLastOut (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y

/-- The accumulator after a LAST step, from the accumulator `xs`. -/
def accLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) : Vec F S1024x1024 .f32 :=
  VS.read (Elt F) (VS.writes (Elt F) VS.junk (runLast c i arg3 harg3 arg4 harg4 arg5 harg5 arg6 harg6 arg7 harg7 hc0 hc1 x0 x1 x2 xs).2.1)

/-- The output block after a LAST step. -/
def outLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hc0 hc1 x0 x1 x2 xs).1)

/-- A placeholder for the output block's buffer where the body stores nothing into it. -/
def noOut : Vec F S1024x1024 .f32 := VO.read (Elt F) (VO.writes (Elt F) VO.junk [])

/-! ## Point by point -/

/-- What the output block's staging buffer and the accumulator hold after the body at position `n` (a pair): the
    situation's contents at the point's memrefs and input blocks, the accumulator of a middle or last step starting
    from what position `n - 1` left. Away from a last step the output component is a placeholder nothing consults
    (the window is idle there and not written back). -/
def outsAt (c : Dev nD) : (n : ℕ) → n < cfg1.N → Vec F S1024x1024 .f32 × Vec F S1024x1024 .f32
  | 0, hn => (noOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((first_iff ⟨0, hn⟩).mpr (Nat.zero_mod _)) (fun h => (fun h => by (try dsimp only at h); omega) ((last_iff ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (noOut, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((first_iff ⟨n + 1, hn⟩).mpr h0) (fun h => h1 ((last_iff ⟨n + 1, hn⟩).mp h)) (iblk V c 0 ⟨n + 1, hn⟩) (iblk V c 1 ⟨n + 1, hn⟩) (iblk V c 2 ⟨n + 1, hn⟩))
    else
      if h1 : (n + 1) % 4 = 3 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((first_iff ⟨n + 1, hn⟩).mp h)) ((last_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((first_iff ⟨n + 1, hn⟩).mp h)) ((last_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (noOut, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((first_iff ⟨n + 1, hn⟩).mp h)) (fun h => h1 ((last_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a first step. -/
theorem outsAt_first (c : Dev nD) (t : Fin cfg1.N) (h0 : t.val % 4 = 0) (h1 : ¬t.val % 4 = 3) :
    outsAt V c t.val t.isLt = (noOut, accFirst c (grid1.coords t) (ms0 t) (hs0 t) (ms1 t) (hs1 t) (ms2 t) (hs2 t) (ms3 t) (hs3 t) accM (Memref.isWhole_whole _) ((first_iff t).mpr h0) (fun h => h1 ((last_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a middle step: over what the point before left. -/
theorem outsAt_mid (c : Dev nD) (t : Fin cfg1.N) (h0 : ¬t.val % 4 = 0) (h1 : ¬t.val % 4 = 3) :
    outsAt V c t.val t.isLt = (noOut, accMid c (grid1.coords t) (ms0 t) (hs0 t) (ms1 t) (hs1 t) (ms2 t) (hs2 t) (ms3 t) (hs3 t) accM (Memref.isWhole_whole _) (fun h => h0 ((first_iff t).mp h)) (fun h => h1 ((last_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last step: over what the point before left. -/
theorem outsAt_last (c : Dev nD) (t : Fin cfg1.N) (h0 : ¬t.val % 4 = 0) (h1 : t.val % 4 = 3) :
    outsAt V c t.val t.isLt = (outLast c (grid1.coords t) (ms0 t) (hs0 t) (ms1 t) (hs1 t) (ms2 t) (hs2 t) (ms3 t) (hs3 t) accM (Memref.isWhole_whole _) (fun h => h0 ((first_iff t).mp h)) ((last_iff t).mpr h1) (iblk V c 0 t) (iblk V c 1 t) (iblk V c 2 t) (outsAt V c (t.val - 1) (Nat.lt_of_le_of_lt (Nat.sub_le _ _) t.isLt)).2,
      accLast c (grid1.coords t) (ms0 t) (hs0 t) (ms1 t) (hs1 t) (ms2 t) (hs2 t) (ms3 t) (hs3 t) accM (Memref.isWhole_whole _) (fun h => h0 ((first_iff t).mp h)) ((last_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the accumulator holds anything; afterwards what the point before left
    in it. Beside it, the scoped buffers the region never touches and the generator register. -/
def PhiS (c : Dev nD) : (n : ℕ) → n ≤ cfg1.N → sProp 𝕄
  | 0, _ => Pipeline.ΦA spec1 c
  | n + 1, hn => iprop(scopedAt c (owns (c : Thread nD τ) accM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedAt c (owns (c : Thread nD τ) accM fullShare ((outsAt V c n hn).2)) ∗ (∃ r, prngReg c r)) := rfl

theorem PhiS_pos (c : Dev nD) (n : ℕ) (h : n ≤ cfg1.N) (hz : n ≠ 0) :
    PhiS V c n h = iprop(scopedAt c (owns (c : Thread nD τ) accM fullShare ((outsAt V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number mod 4 says which step of the
    contraction it is; the invariant hands the body the accumulator at what the point before left (at anything at the
    region's very first point) and takes it back at this point's contents; away from a last step the output block's
    buffer passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  by_cases h0 : t.val % 4 = 0
  · have h1 : ¬t.val % 4 = 3 := by omega
    rw [Dat.leavesExact_idle (dat V c) 3 t (idle3 t (fun h => h1 ((last_iff t).mp h))) (noFlush3 t (fun h => h1 ((last_iff t).mp h)))]
    rw [outsAt_first V c t h0 h1]
    unfold accFirst; (try dsimp only)
    by_cases hz : t.val = 0
    ·
        rw [PhiS_castSucc V c t, PhiS_zero V c _ _ hz, PhiA_eq]
        iintro ⟨⟨HSc, Hg⟩, Ho, ⟨%d0, H0⟩, ⟨%d1, H1⟩, ⟨%d2, H2⟩, ⟨%d3, H3⟩⟩
        ihave HSc' := scopedAt_split c _ $$ HSc
        icases HSc' with ⟨Hoth, HS⟩
        iapply ((runFirst c (grid1.coords t) _ _ _ _ _ _ _ _ _ _ ((first_iff t).mpr h0) (fun h => h1 ((last_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg Hoth]
        · isplitl [HS Hoth]
          · iapply scopedAt_join
            isplitl [Hoth]; · iexact Hoth
            unfold owns; iexists _; isplitr
            swap; · iexact HS
            ipureintro; exact View.read_writes_of_cover _ _ _ _ _ (coverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
    ·
        rw [PhiS_castSucc V c t, PhiS_pos V c _ _ hz]
        iintro ⟨⟨HSc, Hg⟩, Ho, ⟨%d0, H0⟩, ⟨%d1, H1⟩, ⟨%d2, H2⟩, ⟨%d3, H3⟩⟩
        ihave HSc' := scopedAt_split c _ $$ HSc
        icases HSc' with ⟨Hoth, HS⟩
        iapply ((runFirst c (grid1.coords t) _ _ _ _ _ _ _ _ _ _ ((first_iff t).mpr h0) (fun h => h1 ((last_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hg Hoth]
        · isplitl [HS Hoth]
          · iapply scopedAt_join
            isplitl [Hoth]; · iexact Hoth
            unfold owns; iexists _; isplitr
            swap; · iexact HS
            ipureintro; exact View.read_writes_of_cover _ _ _ _ _ (coverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · rw [show (dat V c).leavesExact 3 t = owns (c : Thread nD τ) (ms3 t) fullShare ((dat V c).after 3 t) from by
        unfold Dat.leavesExact; rw [live3 t ((last_iff t).mpr h1)], after_3]
      rw [outsAt_last V c t h0 h1]
      unfold outLast accLast; (try dsimp only)
      rw [PhiS_castSucc V c t, PhiS_pos V c _ _ hz]
      iintro ⟨⟨HSc, Hg⟩, Ho, ⟨%d0, H0⟩, ⟨%d1, H1⟩, ⟨%d2, H2⟩, ⟨%d3, H3⟩⟩
      ihave HSc' := scopedAt_split c _ $$ HSc
      icases HSc' with ⟨Hoth, HS⟩
      iapply ((runLast c (grid1.coords t) _ _ _ _ _ _ _ _ _ _ (fun h => h0 ((first_iff t).mp h)) ((last_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · iapply scopedAt_join
          isplitl [Hoth]; · iexact Hoth
          unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · rw [Dat.leavesExact_idle (dat V c) 3 t (idle3 t (fun h => h1 ((last_iff t).mp h))) (noFlush3 t (fun h => h1 ((last_iff t).mp h)))]
      rw [outsAt_mid V c t h0 h1]
      unfold accMid; (try dsimp only)
      rw [PhiS_castSucc V c t, PhiS_pos V c _ _ hz]
      iintro ⟨⟨HSc, Hg⟩, Ho, ⟨%d0, H0⟩, ⟨%d1, H1⟩, ⟨%d2, H2⟩, ⟨%d3, H3⟩⟩
      ihave HSc' := scopedAt_split c _ $$ HSc
      icases HSc' with ⟨Hoth, HS⟩
      iapply ((runMid c (grid1.coords t) _ _ _ _ _ _ _ _ _ _ (fun h => h0 ((first_iff t).mp h)) (fun h => h1 ((last_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · iapply scopedAt_join
          isplitl [Hoth]; · iexact Hoth
          unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the launch's form back: the accumulator's contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨HSc, Hg⟩
  isplitl [HSc]
  · ihave H := scopedAt_split c _ $$ HSc
    icases H with ⟨Hoth, HS⟩
    iapply scopedAt_join
    isplitl [Hoth]; · iexact Hoth
    iexists _; iexact HS
  iexact Hg

theorem hout (c : Dev nD) : (dat V c).Φ (Fin.last cfg1.N) ⊢ (Pipeline.ΦA spec1 c : sProp 𝕄) :=
  Phi_out V c _ (by rw [Fin.val_last]; have : cfg1.N = 256 := N_1; omega)

end Cert.Kernel.R1

end
-- ==== Proof.K.Run.lean ====
/- The run of @main from the launch to the return. @main is four segments in order: region 0 (the
   dequantisation-and-patch pipeline), a stretch of two host reshapes (the activations flattened to
   a matrix, the bias to a row), region 1 (the matrix product with the bias added), and one last host
   reshape of the product back to three axes. The buffer contents at each boundary are a FOLD from
   the launch memory: a region replaces its arrays by what its write-backs leave and keeps every
   other buffer; a host stretch applies its operations. Over that fold each region is entered from
   "every unscoped buffer at the boundary's contents, the generator register at some state, nothing
   owed" and left at the next boundary's contents, so the segments chain, and the launch theorem
   for a list of segments gives: every weakly fair execution ends, nothing faults, and every
   unscoped buffer ends at the last boundary's contents. The six argument arrays are written by no
   segment, so the fold at each of them walks back to the launch memory. Generic in the float
   instance F. -/
import proofs.«176474_j44985487458785_2_alg».proof.Proof.K.Dequant
import proofs.«176474_j44985487458785_2_alg».proof.Proof.K.Matmul

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch (region 0's entry: no host operation comes before it). -/
abbrev W0 : Dev nD → Valuation τ sig (Elt F) := fun c b => m ((c : Dev nD), b)
/-- The same read at the TensorCore's references (what region 0's proof data take). -/
abbrev V0 : (c : Dev nD) → (b : Ref sig .tc) → Buf (Elt F) ((c : Thread nD τ).loc b) := fun c b => W0 m c b
/-- At region 0's exit: its arrays at what the pipeline leaves (the inputs as entered, the output's
    write-backs folded), every other buffer as entered. -/
def W1 (c : Dev nD) : Valuation τ sig (Elt F) :=
  Pipeline.withArrays spec0 c (W0 m c) fun w => (R0.dat (V0 m) c).arrAt w cfg0.N
theorem W1_arr (c : Dev nD) (w : Fin cfg0.W) :
    W1 m c (Proc.devRef .tc (Pipeline.arrRef spec0 w)) = (R0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m c b
/-- At region 0's exit each of its arrays holds what the pipeline leaves and every other buffer what
    it held at entry. -/
theorem hF0 (c : Dev nD) (w : Fin cfg0.W) : (R0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes (region 1's entry). -/
abbrev W2 : Dev nD → Valuation τ sig (Elt F) := fun c => StableHlo.after hostOps1 (W1 m c)
/-- The same read at the TensorCore's references (what region 1's proof data take). -/
abbrev V2 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (R1.dat (V2 m) c).arrAt w cfg1.N
theorem W3_arr (c : Dev nD) (w : Fin cfg1.W) :
    W3 m c (Proc.devRef .tc (Pipeline.arrRef spec1 w)) = (R1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m c b
theorem hF1 (c : Dev nD) (w : Fin cfg1.W) : (R1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape: the contents at the return. -/
abbrev W4 : Dev nD → Valuation τ sig (Elt F) := fun c => StableHlo.after hostOps2 (W3 m c)

/-! ### The arguments end as launched

No host operation writes an argument array (the reshapes write the fresh buffers they define), and
a region either reads an argument through an input window, whose array it leaves as entered, or
does not touch it; so the fold at an argument's buffer walks back to the launch memory. -/

/-- The two reshapes between the regions write only their own results. -/
theorem W2_keep (c : Dev nD) (b : Ref sig .tc) (h1 : b ≠ main_v1) (h2 : b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-- The last reshape writes only its own result. -/
theorem W4_keep (c : Dev nD) (b : Ref sig .tc) (h : b ≠ main_v4) :
    W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_keep m c main_arg0 (by decide)
    _ = W2 m c (Proc.devRef .tc main_arg0) := W3_of_ne m c main_arg0 (by decide)
    _ = W1 m c (Proc.devRef .tc main_arg0) := W2_keep m c main_arg0 (by decide) (by decide)
    _ = W0 m c (Proc.devRef .tc main_arg0) := (W1_arr m c 0).trans (((R0.dat (V0 m) c).arrAt_in 0 rfl _).trans (R0.A_eq (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_keep m c main_arg1 (by decide)
    _ = W2 m c (Proc.devRef .tc main_arg1) := W3_of_ne m c main_arg1 (by decide)
    _ = W1 m c (Proc.devRef .tc main_arg1) := W2_keep m c main_arg1 (by decide) (by decide)
    _ = W0 m c (Proc.devRef .tc main_arg1) := (W1_arr m c 1).trans (((R0.dat (V0 m) c).arrAt_in 1 rfl _).trans (R0.A_eq (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_keep m c main_arg2 (by decide)
    _ = W2 m c (Proc.devRef .tc main_arg2) := W3_of_ne m c main_arg2 (by decide)
    _ = W1 m c (Proc.devRef .tc main_arg2) := W2_keep m c main_arg2 (by decide) (by decide)
    _ = W0 m c (Proc.devRef .tc main_arg2) := (W1_arr m c 2).trans (((R0.dat (V0 m) c).arrAt_in 2 rfl _).trans (R0.A_eq (V0 m) c 2))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_keep m c main_arg3 (by decide)
    _ = W2 m c (Proc.devRef .tc main_arg3) := W3_of_ne m c main_arg3 (by decide)
    _ = W1 m c (Proc.devRef .tc main_arg3) := W2_keep m c main_arg3 (by decide) (by decide)
    _ = W0 m c (Proc.devRef .tc main_arg3) := (W1_arr m c 3).trans (((R0.dat (V0 m) c).arrAt_in 3 rfl _).trans (R0.A_eq (V0 m) c 3))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_keep m c main_arg4 (by decide)
    _ = W2 m c (Proc.devRef .tc main_arg4) := W3_of_ne m c main_arg4 (by decide)
    _ = W1 m c (Proc.devRef .tc main_arg4) := W2_keep m c main_arg4 (by decide) (by decide)
    _ = W0 m c (Proc.devRef .tc main_arg4) := W1_of_ne m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_keep m c main_arg5 (by decide)
    _ = W2 m c (Proc.devRef .tc main_arg5) := W3_of_ne m c main_arg5 (by decide)
    _ = W1 m c (Proc.devRef .tc main_arg5) := W2_keep m c main_arg5 (by decide) (by decide)
    _ = W0 m c (Proc.devRef .tc main_arg5) := W1_of_ne m c main_arg5 (by decide)
    _ = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents; a literal match, so that the
    pipeline index at a numeral reduces to the printed configuration. -/
def pdats : (p : Fin 2) → (c : Dev nD) → Dat τ (Elt F) Unit ℕ (UR sig nD τ) ℕ (Pipeline.pin (pcfgs (F := F)) adm p) c
  | ⟨0, _⟩ => fun c => R0.dat (V0 m) c
  | ⟨1, _⟩ => fun c => R1.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some
    state, and its debts, at nothing. -/
abbrev R (c : Dev nD) : sProp 𝕄 := iprop((∃ r, prngReg c r) ∗ ∃ W, owes (c : Thread nD τ) (0 : CellTallies nD τ sig Unit) W)
/-- A host stretch as a segment over the unscoped references from the contents W, R riding along;
    it is left at those references at the operations applied to W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the contents at the return,
    the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at the launch contents, left
    at W1. Its five arrays are split out of the unscoped buffers and put back at the exit contents;
    the generator register goes into the pipeline's invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W2, left at W3. As region
    0, except that its invariant carries the accumulator between grid points: at the first point it
    is made from the class's invariant, and at the last point it gives that back (the two
    entailments region 1's half of the frame states). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (fun w => R1.A_eq (V2 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (R1.dat (V2 m) c).Φ 0
    refine BIBase.Entails.trans ?_ (R1.hin (V2 m) c)
    unfold Pipeline.ΦA
    iintro ⟨Hp, -, Hr⟩
    isplitl [Hr]; · iexact Hr
    iexact Hp
  hout c := by
    rw [Pipeline.ownSems0_none]
    show (R1.dat (V2 m) c).Φ (Fin.last cfg1.N) ⊢ _
    refine (R1.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: region 0, the two reshapes from its exit contents, region 1, the
    last reshape from its exit contents. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main IS the run of the segments: it is the chain of its four items, and the segments' run is
    that chain by definitional unfolding. -/
theorem main_run (c : Dev nD) : main (F := F) c = Pipeline.Seg.run (segs m) := (main_chain c).trans (by chain_rfl)

set_option backward.isDefEq.respectTransparency.types false in
/-- THE RUN: at the compiled mesh, from any memory with zero counters, every weakly fair execution of
    @main on the TensorCores terminates, nothing faulting, and in every final state every unscoped
    buffer holds the fold's last contents W4. The launch theorem over the segments: the first
    thread state is made per core from what the launch deals; each segment is entered from what the
    one before it left; the last host stretch leaves the buffers at W4 beside the generator register
    and the core owing nothing, which is the closing state up to regrouping; and the closing state
    read against a final state gives the buffers' contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME, at any F: every weakly fair execution of @main terminates, nothing faulting, and every
    final state has the six argument arrays as launched: each is an unscoped buffer, so the run gives
    its final contents as the fold's, which walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.Kernel.Run

end
-- ==== Proof.KI.Dequant.lean ====
/- Region 0 of @main: the dequantisation-and-patch kernel, as one pipeline of 32 grid points over
   row blocks of 128 rows. At each point the body reads its four input blocks whole (the quantised
   words, the per-block scales, the rows of the up-projection, and the whole down-projection, whose
   block never moves), and writes the whole 128 x 4096 output block once, at the payload of those
   four reads. This module states that half of the frame at a PARAMETER V, the buffer contents the
   TensorCore holds when the region is entered: each window's block at a point, the output block as
   a function of the four input blocks, the body's triple, the pipeline's proof data and the body
   obligation. Everything is generic in the float instance F. -/
import proofs.«176474_j44985487458785_2_alg».proof.Proof.Gen.KernelIdeal.Launch
import proofs.«176474_j44985487458785_2_alg».proof.Proof.Gen.KernelIdeal.Skeleton
import proofs.«176474_j44985487458785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0, the quantised words: its current staging buffer holds its block at every point, whether the pipeline fetched
    it there or not (where it did not, the block index has not moved since the last fetch and the
    body left the buffer alone). For any proof data whose array is V's and whose body leaves the
    block in place; the window is an input, never idle, and its blocks tile the array. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1, the scales: its current staging buffer holds its block at every point, whether the pipeline fetched
    it there or not (where it did not, the block index has not moved since the last fetch and the
    body left the buffer alone). For any proof data whose array is V's and whose body leaves the
    block in place; the window is an input, never idle, and its blocks tile the array. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2, the up-projection's rows: its current staging buffer holds its block at every point, whether the pipeline fetched
    it there or not (where it did not, the block index has not moved since the last fetch and the
    body left the buffer alone). For any proof data whose array is V's and whose body leaves the
    block in place; the window is an input, never idle, and its blocks tile the array. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Window 3, the down-projection (one block, fetched at the first point only): its current staging buffer holds its block at every point, whether the pipeline fetched
    it there or not (where it did not, the block index has not moved since the last fetch and the
    body left the buffer alone). For any proof data whose array is V's and whose body leaves the
    block in place; the window is an input, never idle, and its blocks tile the array. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole block -/

abbrev r0 : Rect S128x128x32 := Rect.unit (s := S128x128x32) ![0, 0, 0] S128x128x32.size inb_S128x128x32_S128x128x32_0_0_0
abbrev r1 : Rect S128x128 := Rect.unit (s := S128x128) ![0, 0] S128x128.size inb_S128x128_S128x128_0_0
abbrev r2 : Rect S128x16 := Rect.unit (s := S128x16) ![0, 0] S128x16.size inb_S128x16_S128x16_0_0
abbrev r3 : Rect S16x4096 := Rect.unit (s := S16x4096) ![0, 0] S16x4096.size inb_S16x4096_S16x4096_0_0
abbrev r4 : Rect S128x4096 := Rect.unit (s := S128x4096) ![0, 0] S128x4096.size inb_S128x4096_S128x4096_0_0

/-! ## What the body leaves in the output window's buffer -/

/-- The output block after the body, from the four input blocks: the one store as a piece over the
    whole block, at the payload of the four whole-block reads (scale times the recentred words, plus
    half the product of the two projections, rounded to the output format). -/
def out4 (x0 : Vec F S128x128x32 .i32) (x1 : Vec F S128x128 .f32) (x2 : Vec F S128x16 .f32) (x3 : Vec F S16x4096 .f32) : Vec F S128x4096 .bf16 :=
  View.canon [⟨r4, k0_pay1 (View.ld x0 r0) (View.ld x1 r1) (View.ld x2 r2) (View.ld x3 r3)⟩]

/-- The one store's rectangle is the whole block, so it covers every index of it. -/
theorem cover4 (p : Vec F S128x4096 .bf16) (y : S128x4096.Idx) :
    ∃ pc ∈ ([⟨r4, p⟩] : List (View.Piece (Elt F) S128x4096 .bf16)), y ∈ pc.1.set :=
  View.cover_of_tiled [⟨r4, p⟩] S128x4096.size (by rfl) y

/-! ## The body's triple -/

set_option maxHeartbeats 1000000 in
/-- The body on whole staging memrefs, the four inputs' at contents x0 .. x3 and the output's at
    anything, runs to a continuation that holds the inputs' as they were and the output's at out4 of
    them. -/
theorem sound_kernel (c : Dev nD) (E : Set ℕ) (i : grid0.Coords)
    (arg1 : Memref sig .tc .vmem S128x128x32 .i32) (harg1 : arg1.IsWhole) (arg2 : Memref sig .tc .vmem S128x128 .f32) (harg2 : arg2.IsWhole)
    (arg3 : Memref sig .tc .vmem S128x16 .f32) (harg3 : arg3.IsWhole) (arg4 : Memref sig .tc .vmem S16x4096 .f32) (harg4 : arg4.IsWhole)
    (arg5 : Memref sig .tc .vmem S128x4096 .bf16) (harg5 : arg5.IsWhole)
    (x0 : Vec F S128x128x32 .i32) (x1 : Vec F S128x128 .f32) (x2 : Vec F S128x16 .f32) (x3 : Vec F S16x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0_dequant_lora_kernel i arg1 harg1 arg2 harg2 arg3 harg3 arg4 harg4 arg5 harg5) K := by
  simp only [cc0_dequant_lora_kernel_eq_skeleton]; unfold cc0_dequant_lora_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of this pipeline on core c: the arrays as the region finds them; after the body
    at point t each input's buffer still at its block and the output's at out4 of the four input
    blocks; the invariant is the scoped rest and the generator register, untouched; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = out4 (iblk V c 0 t) (iblk V c 1 t) (iblk V c 2 t) (iblk V c 3 t) := by dsimp only [dat]

/-- Each input's current staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation, at a generic point -/

/-- What the body is called with at point t: the invariant, what the core owes, and each window's
    current staging memref at what the pipeline left in it, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the body's triple applies; the
    invariant and the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.MatmulBody.lean ====
/-
  The matmul region (the second pallas_call): out = x · wᵀ + bias over a 16 × 4 × 4 grid of 1024-blocks, the last
  grid axis the contraction. A VMEM accumulator is carried across the four points of that axis: set to zero at the
  first, increased by the block product at each, and written out (plus the bias row) at the fourth. This module states
  the body's behaviour in each of the three situations a point can be in (first / middle / last step of the
  contraction) as a Hoare triple on whole staging buffers; the pieces each buffer ends with are found by running the body.
-/
import proofs.«176474_j44985487458785_2_alg».proof.Proof.Gen.KernelIdeal.Launch
import proofs.«176474_j44985487458785_2_alg».proof.Proof.Gen.KernelIdeal.Skeleton
import proofs.«176474_j44985487458785_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, in closed form over the grid -/

/-- The accumulator is reset: the contraction coordinate is 0. -/
abbrev first (i : grid1.Coords) : Prop :=
  (Scalar.cmpi .ne (Scalar.extui (Scalar.cmpi .eq (BitVec.ofNat 32 (i 2).val) 0#32)) 0#32) = 1#1
/-- The block is written out: the contraction coordinate is 3. -/
abbrev last (i : grid1.Coords) : Prop := k1_cond2 i = 1#1

/-- In grid order the contraction coordinate is the point's number mod 4. -/
theorem first_iff : ∀ t : Fin cfg1.N, first (grid1.coords t) ↔ t.val % 4 = 0 :=
  (by decide +kernel : ∀ t : Fin grid1.N, first (grid1.coords t) ↔ t.val % 4 = 0)
theorem last_iff : ∀ t : Fin cfg1.N, last (grid1.coords t) ↔ t.val % 4 = 3 :=
  (by decide +kernel : ∀ t : Fin grid1.N, last (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last contraction step the output block is neither stored into nor written back. -/
theorem idle3 : ∀ t : Fin cfg1.N, ¬last (grid1.coords t) → cfg1.idle 3 (grid1.coords t) = true := by decide +kernel
theorem noFlush3 : ∀ t : Fin cfg1.N, ¬last (grid1.coords t) → (cfg1.win 3).flush t = false := by decide +kernel
theorem live3 : ∀ t : Fin cfg1.N, last (grid1.coords t) → cfg1.idle 3 (grid1.coords t) = false := by decide +kernel

/-! ## The memrefs the body is called with -/

abbrev ms0 (t : Fin cfg1.N) : Memref sig .tc .vmem S1024x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev accM : Memref sig .tc .vmem S1024x1024 .f32 := Memref.whole cc1_scratch0
/-- One staging buffer of the output window and the accumulator, as views: contents are stated through them. -/
abbrev VO : View sig .tc .vmem S1024x1024 .f32 := (Memref.whole cc1_stg3_0 : Memref sig .tc .vmem S1024x1024 .f32).view
abbrev VS : View sig .tc .vmem S1024x1024 .f32 := accM.view

/-- The scoped buffers this region never touches: the other pallas_call's staging buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- Those buffers beside the accumulator in state `S`, in the order the launch enumerates the scoped buffers. -/
def scopedAt (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

theorem scopedAt_split (c : Dev nD) (S : sProp 𝕄) : scopedAt c S ⊢ iprop(others c ∗ S) := by
  unfold scopedAt others
  iintro ⟨H0, H1, H2, H3, H4, H5, H6, H7, H8, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

theorem scopedAt_join (c : Dev nD) (S : sProp 𝕄) : iprop(others c ∗ S) ⊢ scopedAt c S := by
  unfold scopedAt others
  iintro ⟨⟨H0, H1, H2, H3, H4, H5, H6, H7, H8⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- What the region's invariant holds besides the windows: the untouched scoped buffers, the accumulator at some
    contents, and the generator register. -/
theorem PhiA_eq (c : Dev nD) :
    (Pipeline.ΦA spec1 c : sProp 𝕄)
      = iprop(scopedAt c iprop(∃ d, owns (c : Thread nD τ) accM fullShare d) ∗ (∃ r, prngReg c r)) := by
  unfold Pipeline.ΦA scopedAt; rw [scopedRest1_eq]; simp only [accM, owns_whole]; try rfl

/-! ## The body in each situation -/

set_option maxHeartbeats 1000000 in
/-- FIRST step (accumulator reset, then increased; nothing written out): the pieces the accumulator ends with. -/
noncomputable def runFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i)
    (x0 : Vec F S1024x1024 .f32) (x1 : Vec F S1024x1024 .bf16) (x2 : Vec F S1x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- MIDDLE steps (accumulator increased; nothing written out), from the accumulator at `xs`. -/
noncomputable def runMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i)
    (x0 : Vec F S1024x1024 .f32) (x1 : Vec F S1024x1024 .bf16) (x2 : Vec F S1x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- LAST step (accumulator increased, then accumulator + bias stored into the output block), from the accumulator at
    `xs`: the pieces the output block and the accumulator end with. -/
noncomputable def runLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.R1

end
-- ==== Proof.KI.Matmul.lean ====
/-
  The matmul region's proof data: what the accumulator and the output block hold after each grid point, by recursion on
  the point (the accumulator restarts at every fourth point and is otherwise the previous point's, increased by the
  point's block product), the region invariant that carries the accumulator from point to point, and the body
  obligation at a generic point by cases on the step of the contraction.
-/
import proofs.«176474_j44985487458785_2_alg».proof.Proof.KI.MatmulBody

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (unfetched, the block index has not moved). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each situation leaves, read back -/

theorem coverFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i) (x0 : Vec F S1024x1024 .f32) (x1 : Vec F S1024x1024 .bf16) (x2 : Vec F S1x1024 .f32) (y : S1024x1024.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x1024.size (by sl_kernel_rfl) y

/-- The accumulator after a FIRST step. -/
def accFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i) (x0 : Vec F S1024x1024 .f32) (x1 : Vec F S1024x1024 .bf16) (x2 : Vec F S1x1024 .f32) : Vec F S1024x1024 .f32 :=
  VS.read (Elt F) (VS.writes (Elt F) VS.junk (runFirst c i arg3 harg3 arg4 harg4 arg5 harg5 arg6 harg6 arg7 harg7 hc0 hc1 x0 x1 x2).1)

theorem coverMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i) (x0 : Vec F S1024x1024 .f32) (x1 : Vec F S1024x1024 .bf16) (x2 : Vec F S1x1024 .f32) (xs : Vec F S1024x1024 .f32) (y : S1024x1024.Idx) :
    ∃ pc ∈ (runMid c i arg3 harg3 arg4 harg4 arg5 harg5 arg6 harg6 arg7 harg7 hc0 hc1 x0 x1 x2 xs).1, y ∈ pc.1.set :=
  View.cover_of_tiledL (runMid c i arg3 harg3 arg4 harg4 arg5 harg5 arg6 harg6 arg7 harg7 hc0 hc1 x0 x1 x2 xs).1 S1024x1024.size (by sl_kernel_rfl) y

/-- The accumulator after a MIDDLE step, from the accumulator `xs`. -/
def accMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i) (x0 : Vec F S1024x1024 .f32) (x1 : Vec F S1024x1024 .bf16) (x2 : Vec F S1x1024 .f32) (xs : Vec F S1024x1024 .f32) : Vec F S1024x1024 .f32 :=
  VS.read (Elt F) (VS.writes (Elt F) VS.junk (runMid c i arg3 harg3 arg4 harg4 arg5 harg5 arg6 harg6 arg7 harg7 hc0 hc1 x0 x1 x2 xs).1)

theorem coverLastAcc (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x1024.size (by sl_kernel_rfl) y

theorem coverLastOut (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y

/-- The accumulator after a LAST step, from the accumulator `xs`. -/
def accLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) : Vec F S1024x1024 .f32 :=
  VS.read (Elt F) (VS.writes (Elt F) VS.junk (runLast c i arg3 harg3 arg4 harg4 arg5 harg5 arg6 harg6 arg7 harg7 hc0 hc1 x0 x1 x2 xs).2.1)

/-- The output block after a LAST step. -/
def outLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) : Vec F S1024x1024 .f32 :=
  VO.read (Elt F) (VO.writes (Elt F) VO.junk (runLast c i arg3 harg3 arg4 harg4 arg5 harg5 arg6 harg6 arg7 harg7 hc0 hc1 x0 x1 x2 xs).1)

/-- A placeholder for the output block's buffer where the body stores nothing into it. -/
def noOut : Vec F S1024x1024 .f32 := VO.read (Elt F) (VO.writes (Elt F) VO.junk [])

/-! ## Point by point -/

/-- What the output block's staging buffer and the accumulator hold after the body at position `n` (a pair): the
    situation's contents at the point's memrefs and input blocks, the accumulator of a middle or last step starting
    from what position `n - 1` left. Away from a last step the output component is a placeholder nothing consults
    (the window is idle there and not written back). -/
def outsAt (c : Dev nD) : (n : ℕ) → n < cfg1.N → Vec F S1024x1024 .f32 × Vec F S1024x1024 .f32
  | 0, hn => (noOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((first_iff ⟨0, hn⟩).mpr (Nat.zero_mod _)) (fun h => (fun h => by (try dsimp only at h); omega) ((last_iff ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (noOut, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((first_iff ⟨n + 1, hn⟩).mpr h0) (fun h => h1 ((last_iff ⟨n + 1, hn⟩).mp h)) (iblk V c 0 ⟨n + 1, hn⟩) (iblk V c 1 ⟨n + 1, hn⟩) (iblk V c 2 ⟨n + 1, hn⟩))
    else
      if h1 : (n + 1) % 4 = 3 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((first_iff ⟨n + 1, hn⟩).mp h)) ((last_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((first_iff ⟨n + 1, hn⟩).mp h)) ((last_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (noOut, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((first_iff ⟨n + 1, hn⟩).mp h)) (fun h => h1 ((last_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a first step. -/
theorem outsAt_first (c : Dev nD) (t : Fin cfg1.N) (h0 : t.val % 4 = 0) (h1 : ¬t.val % 4 = 3) :
    outsAt V c t.val t.isLt = (noOut, accFirst c (grid1.coords t) (ms0 t) (hs0 t) (ms1 t) (hs1 t) (ms2 t) (hs2 t) (ms3 t) (hs3 t) accM (Memref.isWhole_whole _) ((first_iff t).mpr h0) (fun h => h1 ((last_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a middle step: over what the point before left. -/
theorem outsAt_mid (c : Dev nD) (t : Fin cfg1.N) (h0 : ¬t.val % 4 = 0) (h1 : ¬t.val % 4 = 3) :
    outsAt V c t.val t.isLt = (noOut, accMid c (grid1.coords t) (ms0 t) (hs0 t) (ms1 t) (hs1 t) (ms2 t) (hs2 t) (ms3 t) (hs3 t) accM (Memref.isWhole_whole _) (fun h => h0 ((first_iff t).mp h)) (fun h => h1 ((last_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last step: over what the point before left. -/
theorem outsAt_last (c : Dev nD) (t : Fin cfg1.N) (h0 : ¬t.val % 4 = 0) (h1 : t.val % 4 = 3) :
    outsAt V c t.val t.isLt = (outLast c (grid1.coords t) (ms0 t) (hs0 t) (ms1 t) (hs1 t) (ms2 t) (hs2 t) (ms3 t) (hs3 t) accM (Memref.isWhole_whole _) (fun h => h0 ((first_iff t).mp h)) ((last_iff t).mpr h1) (iblk V c 0 t) (iblk V c 1 t) (iblk V c 2 t) (outsAt V c (t.val - 1) (Nat.lt_of_le_of_lt (Nat.sub_le _ _) t.isLt)).2,
      accLast c (grid1.coords t) (ms0 t) (hs0 t) (ms1 t) (hs1 t) (ms2 t) (hs2 t) (ms3 t) (hs3 t) accM (Memref.isWhole_whole _) (fun h => h0 ((first_iff t).mp h)) ((last_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry the accumulator holds anything; afterwards what the point before left
    in it. Beside it, the scoped buffers the region never touches and the generator register. -/
def PhiS (c : Dev nD) : (n : ℕ) → n ≤ cfg1.N → sProp 𝕄
  | 0, _ => Pipeline.ΦA spec1 c
  | n + 1, hn => iprop(scopedAt c (owns (c : Thread nD τ) accM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedAt c (owns (c : Thread nD τ) accM fullShare ((outsAt V c n hn).2)) ∗ (∃ r, prngReg c r)) := rfl

theorem PhiS_pos (c : Dev nD) (n : ℕ) (h : n ≤ cfg1.N) (hz : n ≠ 0) :
    PhiS V c n h = iprop(scopedAt c (owns (c : Thread nD τ) accM fullShare ((outsAt V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number mod 4 says which step of the
    contraction it is; the invariant hands the body the accumulator at what the point before left (at anything at the
    region's very first point) and takes it back at this point's contents; away from a last step the output block's
    buffer passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  by_cases h0 : t.val % 4 = 0
  · have h1 : ¬t.val % 4 = 3 := by omega
    rw [Dat.leavesExact_idle (dat V c) 3 t (idle3 t (fun h => h1 ((last_iff t).mp h))) (noFlush3 t (fun h => h1 ((last_iff t).mp h)))]
    rw [outsAt_first V c t h0 h1]
    unfold accFirst; (try dsimp only)
    by_cases hz : t.val = 0
    ·
        rw [PhiS_castSucc V c t, PhiS_zero V c _ _ hz, PhiA_eq]
        iintro ⟨⟨HSc, Hg⟩, Ho, ⟨%d0, H0⟩, ⟨%d1, H1⟩, ⟨%d2, H2⟩, ⟨%d3, H3⟩⟩
        ihave HSc' := scopedAt_split c _ $$ HSc
        icases HSc' with ⟨Hoth, HS⟩
        iapply ((runFirst c (grid1.coords t) _ _ _ _ _ _ _ _ _ _ ((first_iff t).mpr h0) (fun h => h1 ((last_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg Hoth]
        · isplitl [HS Hoth]
          · iapply scopedAt_join
            isplitl [Hoth]; · iexact Hoth
            unfold owns; iexists _; isplitr
            swap; · iexact HS
            ipureintro; exact View.read_writes_of_cover _ _ _ _ _ (coverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
    ·
        rw [PhiS_castSucc V c t, PhiS_pos V c _ _ hz]
        iintro ⟨⟨HSc, Hg⟩, Ho, ⟨%d0, H0⟩, ⟨%d1, H1⟩, ⟨%d2, H2⟩, ⟨%d3, H3⟩⟩
        ihave HSc' := scopedAt_split c _ $$ HSc
        icases HSc' with ⟨Hoth, HS⟩
        iapply ((runFirst c (grid1.coords t) _ _ _ _ _ _ _ _ _ _ ((first_iff t).mpr h0) (fun h => h1 ((last_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hg Hoth]
        · isplitl [HS Hoth]
          · iapply scopedAt_join
            isplitl [Hoth]; · iexact Hoth
            unfold owns; iexists _; isplitr
            swap; · iexact HS
            ipureintro; exact View.read_writes_of_cover _ _ _ _ _ (coverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · rw [show (dat V c).leavesExact 3 t = owns (c : Thread nD τ) (ms3 t) fullShare ((dat V c).after 3 t) from by
        unfold Dat.leavesExact; rw [live3 t ((last_iff t).mpr h1)], after_3]
      rw [outsAt_last V c t h0 h1]
      unfold outLast accLast; (try dsimp only)
      rw [PhiS_castSucc V c t, PhiS_pos V c _ _ hz]
      iintro ⟨⟨HSc, Hg⟩, Ho, ⟨%d0, H0⟩, ⟨%d1, H1⟩, ⟨%d2, H2⟩, ⟨%d3, H3⟩⟩
      ihave HSc' := scopedAt_split c _ $$ HSc
      icases HSc' with ⟨Hoth, HS⟩
      iapply ((runLast c (grid1.coords t) _ _ _ _ _ _ _ _ _ _ (fun h => h0 ((first_iff t).mp h)) ((last_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · iapply scopedAt_join
          isplitl [Hoth]; · iexact Hoth
          unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · rw [Dat.leavesExact_idle (dat V c) 3 t (idle3 t (fun h => h1 ((last_iff t).mp h))) (noFlush3 t (fun h => h1 ((last_iff t).mp h)))]
      rw [outsAt_mid V c t h0 h1]
      unfold accMid; (try dsimp only)
      rw [PhiS_castSucc V c t, PhiS_pos V c _ _ hz]
      iintro ⟨⟨HSc, Hg⟩, Ho, ⟨%d0, H0⟩, ⟨%d1, H1⟩, ⟨%d2, H2⟩, ⟨%d3, H3⟩⟩
      ihave HSc' := scopedAt_split c _ $$ HSc
      icases HSc' with ⟨Hoth, HS⟩
      iapply ((runMid c (grid1.coords t) _ _ _ _ _ _ _ _ _ _ (fun h => h0 ((first_iff t).mp h)) (fun h => h1 ((last_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · iapply scopedAt_join
          isplitl [Hoth]; · iexact Hoth
          unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the launch's form back: the accumulator's contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨HSc, Hg⟩
  isplitl [HSc]
  · ihave H := scopedAt_split c _ $$ HSc
    icases H with ⟨Hoth, HS⟩
    iapply scopedAt_join
    isplitl [Hoth]; · iexact Hoth
    iexists _; iexact HS
  iexact Hg

theorem hout (c : Dev nD) : (dat V c).Φ (Fin.last cfg1.N) ⊢ (Pipeline.ΦA spec1 c : sProp 𝕄) :=
  Phi_out V c _ (by rw [Fin.val_last]; have : cfg1.N = 256 := N_1; omega)

end Cert.KernelIdeal.R1

end
-- ==== Proof.KI.Run.lean ====
/- The run of @main from the launch to the return. @main is four segments in order: region 0 (the
   dequantisation-and-patch pipeline), a stretch of two host reshapes (the activations flattened to
   a matrix, the bias to a row), region 1 (the matrix product with the bias added), and one last host
   reshape of the product back to three axes. The buffer contents at each boundary are a FOLD from
   the launch memory: a region replaces its arrays by what its write-backs leave and keeps every
   other buffer; a host stretch applies its operations. Over that fold each region is entered from
   "every unscoped buffer at the boundary's contents, the generator register at some state, nothing
   owed" and left at the next boundary's contents, so the segments chain, and the launch theorem
   for a list of segments gives: every weakly fair execution ends, nothing faults, and every
   unscoped buffer ends at the last boundary's contents. The six argument arrays are written by no
   segment, so the fold at each of them walks back to the launch memory. Generic in the float
   instance F. -/
import proofs.«176474_j44985487458785_2_alg».proof.Proof.KI.Dequant
import proofs.«176474_j44985487458785_2_alg».proof.Proof.KI.Matmul

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch (region 0's entry: no host operation comes before it). -/
abbrev W0 : Dev nD → Valuation τ sig (Elt F) := fun c b => m ((c : Dev nD), b)
/-- The same read at the TensorCore's references (what region 0's proof data take). -/
abbrev V0 : (c : Dev nD) → (b : Ref sig .tc) → Buf (Elt F) ((c : Thread nD τ).loc b) := fun c b => W0 m c b
/-- At region 0's exit: its arrays at what the pipeline leaves (the inputs as entered, the output's
    write-backs folded), every other buffer as entered. -/
def W1 (c : Dev nD) : Valuation τ sig (Elt F) :=
  Pipeline.withArrays spec0 c (W0 m c) fun w => (R0.dat (V0 m) c).arrAt w cfg0.N
theorem W1_arr (c : Dev nD) (w : Fin cfg0.W) :
    W1 m c (Proc.devRef .tc (Pipeline.arrRef spec0 w)) = (R0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m c b
/-- At region 0's exit each of its arrays holds what the pipeline leaves and every other buffer what
    it held at entry. -/
theorem hF0 (c : Dev nD) (w : Fin cfg0.W) : (R0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes (region 1's entry). -/
abbrev W2 : Dev nD → Valuation τ sig (Elt F) := fun c => StableHlo.after hostOps1 (W1 m c)
/-- The same read at the TensorCore's references (what region 1's proof data take). -/
abbrev V2 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (R1.dat (V2 m) c).arrAt w cfg1.N
theorem W3_arr (c : Dev nD) (w : Fin cfg1.W) :
    W3 m c (Proc.devRef .tc (Pipeline.arrRef spec1 w)) = (R1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m c b
theorem hF1 (c : Dev nD) (w : Fin cfg1.W) : (R1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape: the contents at the return. -/
abbrev W4 : Dev nD → Valuation τ sig (Elt F) := fun c => StableHlo.after hostOps2 (W3 m c)

/-! ### The arguments end as launched

No host operation writes an argument array (the reshapes write the fresh buffers they define), and
a region either reads an argument through an input window, whose array it leaves as entered, or
does not touch it; so the fold at an argument's buffer walks back to the launch memory. -/

/-- The two reshapes between the regions write only their own results. -/
theorem W2_keep (c : Dev nD) (b : Ref sig .tc) (h1 : b ≠ main_v1) (h2 : b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-- The last reshape writes only its own result. -/
theorem W4_keep (c : Dev nD) (b : Ref sig .tc) (h : b ≠ main_v4) :
    W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_keep m c main_arg0 (by decide)
    _ = W2 m c (Proc.devRef .tc main_arg0) := W3_of_ne m c main_arg0 (by decide)
    _ = W1 m c (Proc.devRef .tc main_arg0) := W2_keep m c main_arg0 (by decide) (by decide)
    _ = W0 m c (Proc.devRef .tc main_arg0) := (W1_arr m c 0).trans (((R0.dat (V0 m) c).arrAt_in 0 rfl _).trans (R0.A_eq (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_keep m c main_arg1 (by decide)
    _ = W2 m c (Proc.devRef .tc main_arg1) := W3_of_ne m c main_arg1 (by decide)
    _ = W1 m c (Proc.devRef .tc main_arg1) := W2_keep m c main_arg1 (by decide) (by decide)
    _ = W0 m c (Proc.devRef .tc main_arg1) := (W1_arr m c 1).trans (((R0.dat (V0 m) c).arrAt_in 1 rfl _).trans (R0.A_eq (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_keep m c main_arg2 (by decide)
    _ = W2 m c (Proc.devRef .tc main_arg2) := W3_of_ne m c main_arg2 (by decide)
    _ = W1 m c (Proc.devRef .tc main_arg2) := W2_keep m c main_arg2 (by decide) (by decide)
    _ = W0 m c (Proc.devRef .tc main_arg2) := (W1_arr m c 2).trans (((R0.dat (V0 m) c).arrAt_in 2 rfl _).trans (R0.A_eq (V0 m) c 2))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_keep m c main_arg3 (by decide)
    _ = W2 m c (Proc.devRef .tc main_arg3) := W3_of_ne m c main_arg3 (by decide)
    _ = W1 m c (Proc.devRef .tc main_arg3) := W2_keep m c main_arg3 (by decide) (by decide)
    _ = W0 m c (Proc.devRef .tc main_arg3) := (W1_arr m c 3).trans (((R0.dat (V0 m) c).arrAt_in 3 rfl _).trans (R0.A_eq (V0 m) c 3))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_keep m c main_arg4 (by decide)
    _ = W2 m c (Proc.devRef .tc main_arg4) := W3_of_ne m c main_arg4 (by decide)
    _ = W1 m c (Proc.devRef .tc main_arg4) := W2_keep m c main_arg4 (by decide) (by decide)
    _ = W0 m c (Proc.devRef .tc main_arg4) := W1_of_ne m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_keep m c main_arg5 (by decide)
    _ = W2 m c (Proc.devRef .tc main_arg5) := W3_of_ne m c main_arg5 (by decide)
    _ = W1 m c (Proc.devRef .tc main_arg5) := W2_keep m c main_arg5 (by decide) (by decide)
    _ = W0 m c (Proc.devRef .tc main_arg5) := W1_of_ne m c main_arg5 (by decide)
    _ = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents; a literal match, so that the
    pipeline index at a numeral reduces to the printed configuration. -/
def pdats : (p : Fin 2) → (c : Dev nD) → Dat τ (Elt F) Unit ℕ (UR sig nD τ) ℕ (Pipeline.pin (pcfgs (F := F)) adm p) c
  | ⟨0, _⟩ => fun c => R0.dat (V0 m) c
  | ⟨1, _⟩ => fun c => R1.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some
    state, and its debts, at nothing. -/
abbrev R (c : Dev nD) : sProp 𝕄 := iprop((∃ r, prngReg c r) ∗ ∃ W, owes (c : Thread nD τ) (0 : CellTallies nD τ sig Unit) W)
/-- A host stretch as a segment over the unscoped references from the contents W, R riding along;
    it is left at those references at the operations applied to W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the contents at the return,
    the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at the launch contents, left
    at W1. Its five arrays are split out of the unscoped buffers and put back at the exit contents;
    the generator register goes into the pipeline's invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W2, left at W3. As region
    0, except that its invariant carries the accumulator between grid points: at the first point it
    is made from the class's invariant, and at the last point it gives that back (the two
    entailments region 1's half of the frame states). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (fun w => R1.A_eq (V2 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (R1.dat (V2 m) c).Φ 0
    refine BIBase.Entails.trans ?_ (R1.hin (V2 m) c)
    unfold Pipeline.ΦA
    iintro ⟨Hp, -, Hr⟩
    isplitl [Hr]; · iexact Hr
    iexact Hp
  hout c := by
    rw [Pipeline.ownSems0_none]
    show (R1.dat (V2 m) c).Φ (Fin.last cfg1.N) ⊢ _
    refine (R1.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: region 0, the two reshapes from its exit contents, region 1, the
    last reshape from its exit contents. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main IS the run of the segments: it is the chain of its four items, and the segments' run is
    that chain by definitional unfolding. -/
theorem main_run (c : Dev nD) : main (F := F) c = Pipeline.Seg.run (segs m) := (main_chain c).trans (by chain_rfl)

set_option backward.isDefEq.respectTransparency.types false in
/-- THE RUN: at the compiled mesh, from any memory with zero counters, every weakly fair execution of
    @main on the TensorCores terminates, nothing faulting, and in every final state every unscoped
    buffer holds the fold's last contents W4. The launch theorem over the segments: the first
    thread state is made per core from what the launch deals; each segment is entered from what the
    one before it left; the last host stretch leaves the buffers at W4 beside the generator register
    and the core owing nothing, which is the closing state up to regrouping; and the closing state
    read against a final state gives the buffers' contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME, at any F: every weakly fair execution of @main terminates, nothing faulting, and every
    final state has the six argument arrays as launched: each is an unscoped buffer, so the run gives
    its final contents as the fold's, which walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Run

end
-- ==== Proof.Val.Spec.lean ====
/-
  The specification of the layer, index by index, over the literal shapes of its six arguments, and the one
  law of sums the tiled kernel needs.

  The layer stores a weight matrix in blocks of 32 quantised integers with one scale per block, patches it
  with a rank-16 product, and applies it as a linear map with a bias:

    w[o, i]      = s[o, i / 32] * (q[o, i / 32, i % 32] - 128) + 1/2 * Σ r < 16, u[o, r] * d[r, i]
    out[b, t, o] = (Σ i < 4096, x[b, t, i] * w[o, i]) + bias[o]

  The integer q is read as the real number it denotes; 128 and 1/2 stay the two binary32 words the programs
  print (the same words on both sides, so they are never evaluated). Everything is an extended real.
-/
import Idealize.ShloMosaic.PureOps.Ideal
import Idealize.ShloMosaic.Lib.ValueIdx
import Mathlib.Algebra.BigOperators.Fin
import Mathlib.Algebra.BigOperators.Group.Finset.Basic

noncomputable section

open scoped BigOperators

namespace Cert.Val

open Idealize.ShloMosaic Idealize.ShloMosaic.ValueIdx

/-! ## The specification -/

/-- The patched weight at row o and column i: the block's scale times the signed quantised value (the stored
    integer minus 128), plus one half of the rank-16 product of the two patch factors. -/
def wt (q : (⟨3, ![4096, 128, 32]⟩ : Shape).Idx → BitVec 32) (s : (⟨2, ![4096, 128]⟩ : Shape).Idx → EReal)
    (u : (⟨2, ![4096, 16]⟩ : Shape).Idx → EReal) (d : (⟨2, ![16, 4096]⟩ : Shape).Idx → EReal)
    (o i : Fin 4096) : EReal :=
  s (ix2 o (⟨i.val / 32, by omega⟩ : Fin 128))
      * ((((q (ix3 o (⟨i.val / 32, by omega⟩ : Fin 128) (⟨i.val % 32, by omega⟩ : Fin 32))).toInt : ℝ) : EReal)
          - Ideal.ofBits .f32 0x43000000#32)
    + Ideal.ofBits .f32 0x3F000000#32 * ∑ r : Fin 16, u (ix2 o r) * d (ix2 r i)

/-- The layer's result at batch b, position t and output feature o: the input row against row o of the patched
    weight, plus the bias. -/
def out (q : (⟨3, ![4096, 128, 32]⟩ : Shape).Idx → BitVec 32) (s : (⟨2, ![4096, 128]⟩ : Shape).Idx → EReal)
    (u : (⟨2, ![4096, 16]⟩ : Shape).Idx → EReal) (d : (⟨2, ![16, 4096]⟩ : Shape).Idx → EReal)
    (bias : (⟨1, ![4096]⟩ : Shape).Idx → EReal) (x : (⟨3, ![8, 2048, 4096]⟩ : Shape).Idx → EReal)
    (b : Fin 8) (t : Fin 2048) (o : Fin 4096) : EReal :=
  (∑ i : Fin 4096, x (ix3 b t i) * wt q s u d o i) + bias (ix1 o)

/-- The result as an array over the output's shape. -/
def outArr (q : (⟨3, ![4096, 128, 32]⟩ : Shape).Idx → BitVec 32) (s : (⟨2, ![4096, 128]⟩ : Shape).Idx → EReal)
    (u : (⟨2, ![4096, 16]⟩ : Shape).Idx → EReal) (d : (⟨2, ![16, 4096]⟩ : Shape).Idx → EReal)
    (bias : (⟨1, ![4096]⟩ : Shape).Idx → EReal) (x : (⟨3, ![8, 2048, 4096]⟩ : Shape).Idx → EReal) :
    (⟨3, ![8, 2048, 4096]⟩ : Shape).Idx → EReal :=
  fun j => out q s u d bias x ⟨(j 0).val, (j 0).isLt⟩ ⟨(j 1).val, (j 1).isLt⟩ ⟨(j 2).val, (j 2).isLt⟩

/-- The array at an index given by its coordinates. -/
theorem outArr_ix3 (q : (⟨3, ![4096, 128, 32]⟩ : Shape).Idx → BitVec 32) (s : (⟨2, ![4096, 128]⟩ : Shape).Idx → EReal)
    (u : (⟨2, ![4096, 16]⟩ : Shape).Idx → EReal) (d : (⟨2, ![16, 4096]⟩ : Shape).Idx → EReal)
    (bias : (⟨1, ![4096]⟩ : Shape).Idx → EReal) (x : (⟨3, ![8, 2048, 4096]⟩ : Shape).Idx → EReal)
    (b : Fin 8) (t : Fin 2048) (o : Fin 4096) :
    outArr q s u d bias x (ix3 b t o) = out q s u d bias x b t o := rfl

/-! ## A sum over 4096 terms in four runs of 1024

The kernel walks the contraction in four steps of 1024 and adds each partial sum into an accumulator that starts
at zero. Addition of extended reals is commutative and associative (nothing more is used: no finiteness), so the
four partial sums added in that order are the whole sum. -/

/-- Position k of run kb. -/
def at4 (kb : Fin 4) (k : Fin 1024) : Fin 4096 := ⟨kb.val * 1024 + k.val, by omega⟩

theorem at4_val (kb : Fin 4) (k : Fin 1024) : (at4 kb k).val = kb.val * 1024 + k.val := rfl

/-- The 4096 positions are the four runs of 1024, in order. -/
def split4 : Fin 4 × Fin 1024 ≃ Fin 4096 where
  toFun p := at4 p.1 p.2
  invFun i := (⟨i.val / 1024, by omega⟩, ⟨i.val % 1024, by omega⟩)
  left_inv p := by
    obtain ⟨a, b⟩ := p
    refine Prod.ext (Fin.ext ?_) (Fin.ext ?_)
    · show (a.val * 1024 + b.val) / 1024 = a.val; omega
    · show (a.val * 1024 + b.val) % 1024 = b.val; omega
  right_inv i := Fin.ext (by show i.val / 1024 * 1024 + i.val % 1024 = i.val; omega)

/-- A sum over the 4096 positions is the sum over the runs of the sums over each run. -/
theorem sum_runs {M : Type*} [AddCommMonoid M] (f : Fin 4096 → M) :
    ∑ kb : Fin 4, ∑ k : Fin 1024, f (at4 kb k) = ∑ i : Fin 4096, f i := by
  rw [← Equiv.sum_comp split4 f, Fintype.sum_prod_type]
  rfl

/-- Four accumulation steps from zero, one run each, leave the whole sum. -/
theorem fold4_eq_sum (f : Fin 4096 → EReal) :
    (((0 + ∑ k : Fin 1024, f (at4 0 k)) + ∑ k : Fin 1024, f (at4 1 k)) + ∑ k : Fin 1024, f (at4 2 k))
        + ∑ k : Fin 1024, f (at4 3 k) = ∑ i : Fin 4096, f i := by
  rw [← sum_runs f, Fin.sum_univ_four, zero_add]

end Cert.Val

end
-- ==== Proof.Val.RefValue.lean ====
/-
  The reference program computes the specification.

  Its seventeen operations, read one at a time at an index (the generated stage lemmas), are: the block scale
  spread over the 32 positions of its block, the stored integers converted and shifted by 128, their product laid
  out as a 4096 × 4096 matrix (row-major: column i of a row is position i % 32 of block i / 32), one half of the
  16-term product of the two patch factors added to it, that matrix contracted with the input along its second
  axis, and the bias added. Index by index this is the specification's expression, term for term: nothing is
  rearranged.
-/
import proofs.«176474_j44985487458785_2_alg».proof.Proof.Gen.ReferenceIdeal.Read
import proofs.«176474_j44985487458785_2_alg».proof.Proof.Val.Spec
import Idealize.ShloMosaic.Lib.ValueIdx
import Idealize.ShloMosaic.Lib.Pipeline.Value
import Idealize.ShloMosaic.PureOps.Ideal.Laws

noncomputable section

open scoped BigOperators

namespace Cert.Val

open Cert.ReferenceIdeal Cert.ReferenceIdeal.Gen Cert.ReferenceIdeal.Read Idealize.ShloMosaic Idealize.ShloMosaic.ValueIdx

/-- The reference's patched weight matrix at row o and column i is the specification's weight. -/
theorem ref_weight (x0 : (⟨S4096x128x32, .i32⟩ : BufTy).Contents (Elt Ideal)) (x1 : (⟨S4096x128, .f32⟩ : BufTy).Contents (Elt Ideal))
    (x2 : (⟨S4096x16, .f32⟩ : BufTy).Contents (Elt Ideal)) (x3 : (⟨S16x4096, .f32⟩ : BufTy).Contents (Elt Ideal))
    (o i : Fin 4096) :
    val_main_v10 (F := Ideal) x0 x1 x2 x3 (ix2 o i) = wt x0 x1 x2 x3 o i := by
  have e6 : idx_main_v6 (ix2 o i) = ix3 o (⟨i.val / 32, by omega⟩ : Fin 128) (⟨i.val % 32, by omega⟩ : Fin 32) :=
    funext fun a => Fin.ext (by
      match a with
      | ⟨0, _⟩ => show (o.val * 4096 + i.val) / 4096 = o.val; omega
      | ⟨1, _⟩ => show (o.val * 4096 + i.val) / 32 % 128 = i.val / 32; omega
      | ⟨2, _⟩ => show (o.val * 4096 + i.val) % 32 = i.val % 32; omega)
  have e40 : ∀ (jb : Fin 128) (jl : Fin 32), idx_main_v0 (idx_main_v4 (ix3 o jb jl)) = ix2 o jb := fun jb jl =>
    funext fun a => Fin.ext (by match a with | ⟨0, _⟩ => rfl | ⟨1, _⟩ => rfl)
  have el : ∀ k : Fin 16, lidx_main_v7 (ix2 o i) k = ix2 o k := fun k =>
    funext fun a => Fin.ext (by match a with | ⟨0, _⟩ => rfl | ⟨1, _⟩ => rfl)
  have er : ∀ k : Fin 16, ridx_main_v7 (ix2 o i) k = ix2 k i := fun k =>
    funext fun a => Fin.ext (by match a with | ⟨0, _⟩ => rfl | ⟨1, _⟩ => rfl)
  rw [val_main_v10_apply, val_main_v6_apply, e6, val_main_v5_apply, val_main_v4_apply, val_main_v0_apply, e40,
    val_main_v3_apply, val_main_v1_apply, val_main_v2_apply, val_main_cst_apply, val_main_v9_apply, val_main_v8_apply,
    val_main_cst_0_apply, val_main_v7_apply]
  simp only [el, er]
  rfl

/-- The reference's result is the specification's array of its six arguments. -/
theorem ref_eq_spec (x0 : (⟨S4096x128x32, .i32⟩ : BufTy).Contents (Elt Ideal)) (x1 : (⟨S4096x128, .f32⟩ : BufTy).Contents (Elt Ideal))
    (x2 : (⟨S4096x16, .f32⟩ : BufTy).Contents (Elt Ideal)) (x3 : (⟨S16x4096, .f32⟩ : BufTy).Contents (Elt Ideal))
    (x4 : (⟨S4096, .f32⟩ : BufTy).Contents (Elt Ideal)) (x5 : (⟨S8x2048x4096, .f32⟩ : BufTy).Contents (Elt Ideal)) :
    val_main_v14 (F := Ideal) x0 x1 x2 x3 x4 x5 = outArr x0 x1 x2 x3 x4 x5 := by
  funext j
  obtain ⟨b, t, o, rfl⟩ : ∃ (b : Fin 8) (t : Fin 2048) (o : Fin 4096), j = ix3 b t o := ⟨j 0, j 1, j 2, eq_ix3 j⟩
  have e12 : idx_main_v12 (idx_main_v13 (ix3 b t o)) = ix1 o :=
    funext fun a => Fin.ext (by match a with | ⟨0, _⟩ => rfl)
  have el : ∀ k : Fin 4096, lidx_main_v11 (ix3 b t o) k = ix3 b t k := fun k =>
    funext fun a => Fin.ext (by match a with | ⟨0, _⟩ => rfl | ⟨1, _⟩ => rfl | ⟨2, _⟩ => rfl)
  have er : ∀ k : Fin 4096, ridx_main_v11 (ix3 b t o) k = ix2 o k := fun k =>
    funext fun a => Fin.ext (by match a with | ⟨0, _⟩ => rfl | ⟨1, _⟩ => rfl)
  rw [outArr_ix3, val_main_v14_apply, val_main_v11_apply, val_main_v13_apply, val_main_v12_apply, e12]
  unfold out
  simp only [el, er, ref_weight]
  rfl

end Cert.Val

end
-- ==== Proof.Val.Payload.lean ====
/-
  The arithmetic of the two kernels, read at one element, on the extended reals.

  The first kernel computes a 128-row slab of the patched weight: the block scale times the signed quantised
  value, laid out as a row of 4096, plus one half of a 128×16 by 16×4096 product. The second kernel's three
  values are the zero accumulator, one accumulation step (the accumulator plus a 1024×1024 product that contracts
  the second axis of both operands: row p of the input block against row q of the weight block), and the
  accumulator plus the bias row. On the extended reals a change of float format is the identity and every
  operation is exact, so each value at an index is the textbook expression.
-/
import proofs.«176474_j44985487458785_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Val

open Cert.KernelIdeal Cert.KernelIdeal.Gen Idealize.ShloMosaic Idealize.ShloMosaic.ValueIdx

/-! ## Layout operations at an index given by coordinates -/

/-- An [a, b] array viewed as [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An [a, b, 1] array broadcast along its last axis to [a, b, c] reads, at (i, j, l), the operand at (i, j, 0). -/
theorem broadcastTo_ab1_abc_apply {α : Type} {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else l.val
    rw [if_pos rfl]

/-! ## The first kernel: a slab of the patched weight -/

/-- The dequantised part at row p and column j: the scale of block j / 32 times the signed value at position
    j % 32 of that block (c is the offset, kept as a variable). -/
theorem dequant_apply (v0 : Vec Ideal S128x128x32 .i32) (v4 : Vec Ideal S128x128 .f32) (c : EReal)
    (h1 : S128x128.ShapeCasts S128x128x1) (h2 : S128x128x1.Broadcasts S128x128x32)
    (h3 : S128x128x32.ShapeCasts S128x4096) (p : Fin 128) (j : Fin 4096) :
    shapeCast S128x4096
        (mulf (F := Ideal) (φ := .f32) (broadcastTo S128x128x32 (shapeCast S128x128x1 v4 h1) h2)
          (subf (sitofp .f32 v0) (broadcast S128x128x32 c))) h3 (ix2 p j)
      = v4 (ix2 p (⟨j.val / 32, by omega⟩ : Fin 128))
          * ((((v0 (ix3 p (⟨j.val / 32, by omega⟩ : Fin 128) (⟨j.val % 32, by omega⟩ : Fin 32))).toInt : ℝ) : EReal) - c) := by
  refine (shapeCast_apply _ h3 (ix2 p j)
    (ix3 p (⟨j.val / 32, by omega⟩ : Fin 128) (⟨j.val % 32, by omega⟩ : Fin 32)) ?_).trans ?_
  · rw [Shape.rowMajor_val_three, Shape.rowMajor_val_two]
    show (p.val * 128 + j.val / 32) * 32 + j.val % 32 = p.val * 4096 + j.val
    omega
  · show broadcastTo S128x128x32 (shapeCast S128x128x1 v4 h1) h2
          (ix3 p (⟨j.val / 32, by omega⟩ : Fin 128) (⟨j.val % 32, by omega⟩ : Fin 32))
        * ((((v0 (ix3 p (⟨j.val / 32, by omega⟩ : Fin 128) (⟨j.val % 32, by omega⟩ : Fin 32))).toInt : ℝ) : EReal) - c) = _
    rw [broadcastTo_ab1_abc_apply, shapeCast_ab_ab1_apply]

theorem lhs0_0 (i : S128x4096.Idx) (q : dot_S128x16_S16x4096_S128x4096_1_0_0_1_n_n.contr.Idx) :
    (dot_S128x16_S16x4096_S128x4096_1_0_0_1_n_n.lhsIdx i q 0).val = (i 0).val := by
  unfold DotDims.lhsIdx
  rw [dif_neg (show ¬(0 : Fin S128x16.rank) ∈ dot_S128x16_S16x4096_S128x4096_1_0_0_1_n_n.lhsBatch by decide), dif_pos (show (0 : Fin S128x16.rank) ∈ dot_S128x16_S16x4096_S128x4096_1_0_0_1_n_n.lhsNonContracting by decide)]
  rfl
theorem lhs0_1 (i : S128x4096.Idx) (q : dot_S128x16_S16x4096_S128x4096_1_0_0_1_n_n.contr.Idx) :
    (dot_S128x16_S16x4096_S128x4096_1_0_0_1_n_n.lhsIdx i q 1).val = (q ⟨0, by decide⟩).val :=
  dot_S128x16_S16x4096_S128x4096_1_0_0_1_n_n.lhsIdx_val_of_single rfl i q
theorem rhs0_0 (i : S128x4096.Idx) (q : dot_S128x16_S16x4096_S128x4096_1_0_0_1_n_n.contr.Idx) :
    (dot_S128x16_S16x4096_S128x4096_1_0_0_1_n_n.rhsIdx i q 0).val = (q ⟨0, by decide⟩).val :=
  dot_S128x16_S16x4096_S128x4096_1_0_0_1_n_n.rhsIdx_val_of_single rfl i q
theorem rhs0_1 (i : S128x4096.Idx) (q : dot_S128x16_S16x4096_S128x4096_1_0_0_1_n_n.contr.Idx) :
    (dot_S128x16_S16x4096_S128x4096_1_0_0_1_n_n.rhsIdx i q 1).val = (i 1).val := by
  unfold DotDims.rhsIdx
  rw [dif_neg (show ¬(1 : Fin S16x4096.rank) ∈ dot_S128x16_S16x4096_S128x4096_1_0_0_1_n_n.rhsBatch by decide), dif_pos (show (1 : Fin S16x4096.rank) ∈ dot_S128x16_S16x4096_S128x4096_1_0_0_1_n_n.rhsNonContracting by decide)]
  rfl

/-- The rank-16 product at row p and column j: the sum over r of the left factor at (p, r) times the right at (r, j). -/
theorem patch_apply (l : FVec Ideal S128x16 .bf16) (r : FVec Ideal S16x4096 .bf16) (p : Fin 128) (j : Fin 4096) :
    matmul dot_S128x16_S16x4096_S128x4096_1_0_0_1_n_n none l r (constant S128x4096 .f32 0x00000000#32) (ix2 p j)
      = ∑ k : Fin 16, l (ix2 p k) * r (ix2 k j) := by
  simp only [matmul]
  rw [Ideal.matmul_constant_zero_apply, ← Equiv.sum_comp (contrEquiv1 dot_S128x16_S16x4096_S128x4096_1_0_0_1_n_n 16 rfl rfl).symm]
  refine Finset.sum_congr rfl fun k _ => ?_
  have hk := contrEquiv1_symm_val dot_S128x16_S16x4096_S128x4096_1_0_0_1_n_n 16 rfl rfl k
  have el : dot_S128x16_S16x4096_S128x4096_1_0_0_1_n_n.lhsIdx (ix2 p j) ((contrEquiv1 dot_S128x16_S16x4096_S128x4096_1_0_0_1_n_n 16 rfl rfl).symm k) = ix2 p k := funext fun a => Fin.ext (by
    match a with
    | ⟨0, _⟩ => exact lhs0_0 _ _
    | ⟨1, _⟩ => exact (lhs0_1 _ _).trans hk)
  have er : dot_S128x16_S16x4096_S128x4096_1_0_0_1_n_n.rhsIdx (ix2 p j) ((contrEquiv1 dot_S128x16_S16x4096_S128x4096_1_0_0_1_n_n 16 rfl rfl).symm k) = ix2 k j := funext fun a => Fin.ext (by
    match a with
    | ⟨0, _⟩ => exact (rhs0_0 _ _).trans hk
    | ⟨1, _⟩ => exact rhs0_1 _ _)
  rw [el, er]

/-- The first kernel's stored value at row p and column j of its slab: the patched weight. -/
theorem k0_pay1_apply (v0 : Vec Ideal S128x128x32 .i32) (v4 : Vec Ideal S128x128 .f32) (v9 : Vec Ideal S128x16 .f32)
    (v11 : Vec Ideal S16x4096 .f32) (p : Fin 128) (j : Fin 4096) :
    k0_pay1 (F := Ideal) v0 v4 v9 v11 (ix2 p j)
      = v4 (ix2 p (⟨j.val / 32, by omega⟩ : Fin 128))
          * ((((v0 (ix3 p (⟨j.val / 32, by omega⟩ : Fin 128) (⟨j.val % 32, by omega⟩ : Fin 32))).toInt : ℝ) : EReal)
              - Ideal.ofBits .f32 0x43000000#32)
        + Ideal.ofBits .f32 0x3F000000#32 * ∑ r : Fin 16, v9 (ix2 p r) * v11 (ix2 r j) := by
  unfold k0_pay1
  exact congrArg₂ (· + ·)
    (dequant_apply v0 v4 (Ideal.ofBits .f32 0x43000000#32) _ _ _ p j)
    (congrArg (Ideal.ofBits .f32 0x3F000000#32 * ·) (patch_apply v9 v11 p j))

/-! ## The second kernel: the accumulator -/

/-- The value the accumulator is reset to is zero everywhere. -/
theorem k1_pay1_apply (i : S1024x1024.Idx) : k1_pay1 (F := Ideal) i = 0 := by
  unfold k1_pay1
  rw [shapeCast_self]
  exact Ideal.ofBits_zero_f32

theorem k1_pay1_eq : k1_pay1 (F := Ideal) = fun _ => (0 : EReal) := funext k1_pay1_apply

theorem lhs1_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs1_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs1_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs1_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A block product that contracts the second axis of both operands: at (p, q) the sum over k of the left block
    at (p, k) times the right block at (q, k). -/
theorem rowdot_apply (l r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs1_0 _ _
    | ⟨1, _⟩ => exact (rhs1_1 _ _).trans hk)
  rw [el, er]

/-- One accumulation step at (p, q): the accumulator plus row p of the input block against row q of the weight block. -/
theorem k1_pay2_apply (x : Vec Ideal S1024x1024 .f32) (w : Vec Ideal S1024x1024 .bf16) (acc : Vec Ideal S1024x1024 .f32)
    (p q : Fin 1024) :
    k1_pay2 (F := Ideal) x w acc (ix2 p q) = acc (ix2 p q) + ∑ k : Fin 1024, x (ix2 p k) * w (ix2 q k) := by
  unfold k1_pay2
  simp only [shapeCast_self]
  exact congrArg (acc (ix2 p q) + ·) (rowdot_apply x w p q)

/-- The stored result at (p, q): the accumulator plus the bias row at q. -/
theorem k1_pay3_apply (acc : Vec Ideal S1024x1024 .f32) (b : Vec Ideal S1x1024 .f32) (p q : Fin 1024) :
    k1_pay3 (F := Ideal) acc b (ix2 p q) = acc (ix2 p q) + b (ix2 (0 : Fin 1) q) := by
  unfold k1_pay3
  simp only [shapeCast_self]
  exact congrArg (acc (ix2 p q) + ·) (broadcastTo_1b_ab_apply b _ p q)

/-- Four accumulation steps from the reset value, at (p, q): the four block products added in order onto zero. -/
theorem k1_fold4_apply (x0 x1 x2 x3 : Vec Ideal S1024x1024 .f32) (w0 w1 w2 w3 : Vec Ideal S1024x1024 .bf16)
    (p q : Fin 1024) :
    k1_pay2 (F := Ideal) x3 w3 (k1_pay2 x2 w2 (k1_pay2 x1 w1 (k1_pay2 x0 w0 (k1_pay1 (F := Ideal))))) (ix2 p q)
      = (((0 + ∑ k : Fin 1024, x0 (ix2 p k) * w0 (ix2 q k)) + ∑ k : Fin 1024, x1 (ix2 p k) * w1 (ix2 q k))
            + ∑ k : Fin 1024, x2 (ix2 p k) * w2 (ix2 q k))
          + ∑ k : Fin 1024, x3 (ix2 p k) * w3 (ix2 q k) := by
  rw [k1_pay2_apply, k1_pay2_apply, k1_pay2_apply, k1_pay2_apply, k1_pay1_apply]

end Cert.Val

end
-- ==== Proof.Val.Blocks0.lean ====
/-
  The weight matrix the first region leaves.

  The region walks 32 grid points; point t reads rows 128 t … 128 t + 127 of the quantised words, of the scales
  and of the left patch factor, the whole right patch factor, and writes rows 128 t … 128 t + 127 of the result.
  Each written element is the kernel's value of the blocks it read, and an element of a block is the element of
  the array 128 t rows further down, so what point t writes back is its block of ONE matrix: the specification's
  patched weight of the four argument arrays. The 32 blocks tile the 4096 rows (row r lies in block r / 128), so
  the array ends holding that matrix.
-/
import proofs.«176474_j44985487458785_2_alg».proof.Proof.KI.Dequant
import proofs.«176474_j44985487458785_2_alg».proof.Proof.Val.Spec
import proofs.«176474_j44985487458785_2_alg».proof.Proof.Val.Payload
import Idealize.ShloMosaic.Lib.Pipeline.Value

noncomputable section

open scoped BigOperators

namespace Cert.Val

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## One point's block, over variables -/

/-- If the four blocks are the argument arrays read T blocks of 128 rows down (the right patch factor whole), the
    kernel's value at an element of the block is the specification's weight at the element of the matrix 128 T
    rows further down. -/
theorem slab_eq_wt (a0 : S4096x128x32.Idx → BitVec 32) (a1 : S4096x128.Idx → EReal) (a2 : S4096x16.Idx → EReal)
    (a3 : S16x4096.Idx → EReal)
    (x0 : Vec Ideal S128x128x32 .i32) (x1 : Vec Ideal S128x128 .f32) (x2 : Vec Ideal S128x16 .f32)
    (x3 : Vec Ideal S16x4096 .f32) (T : ℕ) (hT : T < 32)
    (h0 : ∀ (p : Fin 128) (b : Fin 128) (l : Fin 32), x0 (ix3 p b l) = a0 (ix3 (⟨T * 128 + p.val, by omega⟩ : Fin 4096) b l))
    (h1 : ∀ (p : Fin 128) (b : Fin 128), x1 (ix2 p b) = a1 (ix2 (⟨T * 128 + p.val, by omega⟩ : Fin 4096) b))
    (h2 : ∀ (p : Fin 128) (r : Fin 16), x2 (ix2 p r) = a2 (ix2 (⟨T * 128 + p.val, by omega⟩ : Fin 4096) r))
    (h3 : ∀ (r : Fin 16) (j : Fin 4096), x3 (ix2 r j) = a3 (ix2 r j))
    (y : S128x4096.Idx) (i : S4096x4096.Idx) (hi0 : (i 0).val = T * 128 + (y 0).val) (hi1 : (i 1).val = (y 1).val) :
    k0_pay1 (F := Ideal) x0 x1 x2 x3 y = wt a0 a1 a2 a3 ⟨(i 0).val, (i 0).isLt⟩ ⟨(i 1).val, (i 1).isLt⟩ := by
  obtain ⟨p, j, rfl⟩ : ∃ (p : Fin 128) (j : Fin 4096), y = ix2 p j := ⟨y 0, y 1, eq_ix2 y⟩
  have e0 : (⟨(i 0).val, (i 0).isLt⟩ : Fin 4096) = ⟨T * 128 + p.val, by omega⟩ := Fin.ext hi0
  have e1 : (⟨(i 1).val, (i 1).isLt⟩ : Fin 4096) = j := Fin.ext hi1
  rw [e0, e1, k0_pay1_apply, h0, h1]
  simp only [h2, h3]
  rfl

/-! ## The blocks of the region's windows -/

variable (V : (c : Dev nD) → (b : Ref sig .tc) → Buf (Elt Ideal) ((c : Thread nD τ).loc b))

/-- The block indices over the grid: the three row-blocked inputs and the output sit at block (t, 0 …), the right
    patch factor at block (0, 0). -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The quantised words' block at point t is rows 128 t … of the array. -/
theorem blk0_0 (c : Dev nD) (t : Fin cfg0.N) (p : Fin 128) (b : Fin 128) (l : Fin 32) :
    (iblk V c 0 t : Vec Ideal S128x128x32 .i32) (ix3 p b l)
      = (V c main_arg0 : S4096x128x32.Idx → BitVec 32) (ix3 (⟨t.val * 128 + p.val, by have := t.isLt; have hN : cfg0.N = 32 := N_0; omega⟩ : Fin 4096) b l) := by
  obtain ⟨e00, e01, e02, -⟩ := idx_facts0 t
  show V c main_arg0 (((cfg0.win 0).blk t).view.emb (ix3 p b l)) = V c main_arg0 _
  refine congrArg (V c main_arg0) (funext fun a => Fin.ext ?_)
  match a with
  | ⟨0, _⟩ => show win0_0.index t (0 : Fin 3) * 128 + 1 * p.val = t.val * 128 + p.val; omega
  | ⟨1, _⟩ => show win0_0.index t (1 : Fin 3) * 128 + 1 * b.val = b.val; omega
  | ⟨2, _⟩ => show win0_0.index t (2 : Fin 3) * 32 + 1 * l.val = l.val; omega

/-- The scales' block at point t is rows 128 t … of the array. -/
theorem blk0_1 (c : Dev nD) (t : Fin cfg0.N) (p : Fin 128) (b : Fin 128) :
    (iblk V c 1 t : Vec Ideal S128x128 .f32) (ix2 p b)
      = (V c main_arg1 : S4096x128.Idx → EReal) (ix2 (⟨t.val * 128 + p.val, by have := t.isLt; have hN : cfg0.N = 32 := N_0; omega⟩ : Fin 4096) b) := by
  obtain ⟨-, -, -, e10, e11, -⟩ := idx_facts0 t
  show V c main_arg1 (((cfg0.win 1).blk t).view.emb (ix2 p b)) = V c main_arg1 _
  refine congrArg (V c main_arg1) (funext fun a => Fin.ext ?_)
  match a with
  | ⟨0, _⟩ => show win0_1.index t (0 : Fin 2) * 128 + 1 * p.val = t.val * 128 + p.val; omega
  | ⟨1, _⟩ => show win0_1.index t (1 : Fin 2) * 128 + 1 * b.val = b.val; omega

/-- The left patch factor's block at point t is rows 128 t … of the array. -/
theorem blk0_2 (c : Dev nD) (t : Fin cfg0.N) (p : Fin 128) (r : Fin 16) :
    (iblk V c 2 t : Vec Ideal S128x16 .f32) (ix2 p r)
      = (V c main_arg2 : S4096x16.Idx → EReal) (ix2 (⟨t.val * 128 + p.val, by have := t.isLt; have hN : cfg0.N = 32 := N_0; omega⟩ : Fin 4096) r) := by
  obtain ⟨-, -, -, -, -, e20, e21, -⟩ := idx_facts0 t
  show V c main_arg2 (((cfg0.win 2).blk t).view.emb (ix2 p r)) = V c main_arg2 _
  refine congrArg (V c main_arg2) (funext fun a => Fin.ext ?_)
  match a with
  | ⟨0, _⟩ => show win0_2.index t (0 : Fin 2) * 128 + 1 * p.val = t.val * 128 + p.val; omega
  | ⟨1, _⟩ => show win0_2.index t (1 : Fin 2) * 16 + 1 * r.val = r.val; omega

/-- The right patch factor's one block is the array. -/
theorem blk0_3 (c : Dev nD) (t : Fin cfg0.N) (r : Fin 16) (j : Fin 4096) :
    (iblk V c 3 t : Vec Ideal S16x4096 .f32) (ix2 r j) = (V c main_arg3 : S16x4096.Idx → EReal) (ix2 r j) := by
  obtain ⟨-, -, -, -, -, -, -, e30, e31, -⟩ := idx_facts0 t
  show V c main_arg3 (((cfg0.win 3).blk t).view.emb (ix2 r j)) = V c main_arg3 _
  refine congrArg (V c main_arg3) (funext fun a => Fin.ext ?_)
  match a with
  | ⟨0, _⟩ => show win0_3.index t (0 : Fin 2) * 16 + 1 * r.val = r.val; omega
  | ⟨1, _⟩ => show win0_3.index t (1 : Fin 2) * 4096 + 1 * j.val = j.val; omega

/-! ## The array after the region -/

/-- The patched weight of the four argument arrays as the region finds them, as a matrix. -/
def weightArr (c : Dev nD) : S4096x4096.Idx → EReal := fun j =>
  wt (V c main_arg0) (V c main_arg1) (V c main_arg2) (V c main_arg3) ⟨(j 0).val, (j 0).isLt⟩ ⟨(j 1).val, (j 1).isLt⟩

/-- What point t writes back is its block of the patched weight. -/
theorem flushed4_eq (c : Dev nD) (t : Fin cfg0.N) :
    (dat (F := Ideal) V c).flushed 4 t = ((cfg0.win 4).blk t).view.read (Elt Ideal) (weightArr V c) := by
  have hN : cfg0.N = 32 := N_0
  obtain ⟨-, -, -, -, -, -, -, -, -, e40, e41⟩ := idx_facts0 t
  show (cfg0.win 4).cut (grid0.coords t) ((dat (F := Ideal) V c).after 4 t) = _
  rw [after_4]
  unfold out4
  rw [View.canon_unit_zero zeros2]
  simp only [View.ld_unit_zero (S := S128x128x32) zeros3, View.ld_unit_zero (S := S128x128) zeros2,
    View.ld_unit_zero (S := S128x16) zeros2, View.ld_unit_zero (S := S16x4096) zeros2]
  funext y
  show k0_pay1 (F := Ideal) (iblk V c 0 t) (iblk V c 1 t) (iblk V c 2 t) (iblk V c 3 t) y
      = weightArr V c (((cfg0.win 4).blk t).view.emb y)
  unfold weightArr
  refine slab_eq_wt _ _ _ _ _ _ _ _ t.val (by have := t.isLt; omega) (blk0_0 V c t) (blk0_1 V c t) (blk0_2 V c t)
    (blk0_3 V c t) y _ ?_ ?_
  · show win0_4.index t (0 : Fin 2) * 128 + 1 * (y 0).val = t.val * 128 + (y 0).val; omega
  · show win0_4.index t (1 : Fin 2) * 4096 + 1 * (y 1).val = (y 1).val; omega

/-- An index of the matrix is in point t's block iff each coordinate is in the block's range on its axis. -/
theorem mem_blk4 (t : Fin cfg0.N) (i : S4096x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0).slice (win0_4.rect t)).set ↔ _
  rw [View.set_slice_whole, Rect.mem_set_unit]
  exact Iff.rfl

/-- Row r of the matrix lies in the block of point r / 128. -/
theorem cover4 (i : S4096x4096.Idx) :
    ∃ t : Fin cfg0.N, (cfg0.win 4).flush t = true ∧ i ∈ ((cfg0.win 4).blk t).view.set := by
  have hN : cfg0.N = 32 := N_0
  have hi0 : (i 0).val < 4096 := (i 0).isLt
  have hi1 : (i 1).val < 4096 := (i 1).isLt
  refine ⟨⟨(i 0).val / 128, by omega⟩, flush0_4 _, ?_⟩
  obtain ⟨-, -, -, -, -, -, -, -, -, e40, e41⟩ := idx_facts0 ⟨(i 0).val / 128, by omega⟩
  rw [mem_blk4]
  intro a
  match a with
  | ⟨0, _⟩ =>
    show win0_4.index ⟨(i 0).val / 128, _⟩ (0 : Fin 2) * 128 ≤ (i 0).val ∧ (i 0).val < win0_4.index ⟨(i 0).val / 128, _⟩ (0 : Fin 2) * 128 + 128
    rw [e40]; show (i 0).val / 128 * 128 ≤ (i 0).val ∧ (i 0).val < (i 0).val / 128 * 128 + 128; omega
  | ⟨1, _⟩ =>
    show win0_4.index ⟨(i 0).val / 128, _⟩ (1 : Fin 2) * 4096 ≤ (i 1).val ∧ (i 1).val < win0_4.index ⟨(i 0).val / 128, _⟩ (1 : Fin 2) * 4096 + 4096
    rw [e41]; omega

/-- After the first region the weight array holds the specification's patched weight of the four arguments. -/
theorem weight_arr (c : Dev nD) : (dat (F := Ideal) V c).arrAt 4 cfg0.N = weightArr V c :=
  (dat (F := Ideal) V c).arrAt_eq_of_cover 4 (weightArr V c) (fun t _ => flushed4_eq V c t) (cover4)

end Cert.Val

end
-- ==== Proof.KI.MatmulPieces.lean ====
/-
  What the accumulator and the output block hold after each step of the contraction, in closed form over the body's
  named arithmetic: a first step leaves  acc := 0 + x·wᵀ ; a later step  acc := acc + x·wᵀ ; the last step also leaves
  out := acc + bias. (A whole-block load or store through the zero-offset rectangle reads or writes the whole vector.)
  Consequently the block written back at the fourth point of a contraction is the bias row added to four nested
  accumulation steps over the four consecutive points' input blocks, starting from zero.
-/
import proofs.«176474_j44985487458785_2_alg».proof.Proof.KI.Matmul
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem off2 : (![0, 0] : Fin S1024x1024.rank → ℕ) = fun _ => 0 := by
  funext a; fin_cases a <;> rfl
theorem off2b : (![0, 0] : Fin S1x1024.rank → ℕ) = fun _ => 0 := by
  funext a; fin_cases a <;> rfl

/-! ## One step, in closed form -/

theorem accFirst_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : first i) (hc1 : ¬last i) (x0 : Vec F S1024x1024 .f32) (x1 : Vec F S1024x1024 .bf16) (x2 : Vec F S1x1024 .f32) :
    accFirst c i arg3 harg3 arg4 harg4 arg5 harg5 arg6 harg6 arg7 harg7 hc0 hc1 x0 x1 x2 = k1_pay2 x0 x1 (k1_pay1 (F := F)) := by
  unfold accFirst
  rw [View.read_writes_eq_canon _ _ _ (coverFirst c i arg3 harg3 arg4 harg4 arg5 harg5 arg6 harg6 arg7 harg7 hc0 hc1 x0 x1 x2)]
  unfold runFirst; dsimp only
  sl_unfold_words
  rw [View.canon_cons_unit_zero off2, View.readCov_unit_zero (S := S1024x1024) arg7.view off2]
  simp only [View.readAt_eq_ld, harg3.read_unread, harg4.read_unread, View.ld_unit_zero (S := S1024x1024) off2]

theorem accMid_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : ¬last i) (x0 : Vec F S1024x1024 .f32) (x1 : Vec F S1024x1024 .bf16) (x2 : Vec F S1x1024 .f32) (xs : Vec F S1024x1024 .f32) :
    accMid c i arg3 harg3 arg4 harg4 arg5 harg5 arg6 harg6 arg7 harg7 hc0 hc1 x0 x1 x2 xs = k1_pay2 x0 x1 xs := by
  unfold accMid
  rw [View.read_writes_eq_canon _ _ _ (coverMid c i arg3 harg3 arg4 harg4 arg5 harg5 arg6 harg6 arg7 harg7 hc0 hc1 x0 x1 x2 xs)]
  unfold runMid; dsimp only
  sl_unfold_words
  rw [View.canon_unit_zero off2]
  simp only [View.readAt_eq_ld, harg3.read_unread, harg4.read_unread, harg7.read_unread, View.ld_unit_zero (S := S1024x1024) off2]

theorem accLast_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) :
    accLast c i arg3 harg3 arg4 harg4 arg5 harg5 arg6 harg6 arg7 harg7 hc0 hc1 x0 x1 x2 xs = k1_pay2 x0 x1 xs := by
  unfold accLast
  rw [View.read_writes_eq_canon _ _ _ (coverLastAcc c i arg3 harg3 arg4 harg4 arg5 harg5 arg6 harg6 arg7 harg7 hc0 hc1 x0 x1 x2 xs)]
  unfold runLast; dsimp only
  sl_unfold_words
  rw [View.canon_unit_zero off2]
  simp only [View.readAt_eq_ld, harg3.read_unread, harg4.read_unread, harg7.read_unread, View.ld_unit_zero (S := S1024x1024) off2]

theorem outLast_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬first i) (hc1 : last i) (x0 : Vec F S1024x1024 .f32) (x1 : Vec F S1024x1024 .bf16) (x2 : Vec F S1x1024 .f32) (xs : Vec F S1024x1024 .f32) :
    outLast c i arg3 harg3 arg4 harg4 arg5 harg5 arg6 harg6 arg7 harg7 hc0 hc1 x0 x1 x2 xs = k1_pay3 (k1_pay2 x0 x1 xs) x2 := by
  unfold outLast
  rw [View.read_writes_eq_canon _ _ _ (coverLastOut c i arg3 harg3 arg4 harg4 arg5 harg5 arg6 harg6 arg7 harg7 hc0 hc1 x0 x1 x2 xs)]
  unfold runLast; dsimp only
  sl_unfold_words
  rw [View.canon_unit_zero off2, View.readCov_unit_zero (S := S1024x1024) arg7.view off2]
  simp only [View.readAt_eq_ld, harg3.read_unread, harg4.read_unread, harg5.read_unread, harg7.read_unread,
    View.ld_unit_zero (S := S1024x1024) off2, View.ld_unit_zero (S := S1x1024) off2b]

/-! ## Point by point, in closed form -/

variable (V : (c : Dev nD) → (b : Ref sig .tc) → Buf (Elt F) ((c : Thread nD τ).loc b))

/-- The grid point `J` positions before `t`. -/
def back (t : Fin cfg1.N) (J : ℕ) : Fin cfg1.N := ⟨t.val - J, lt_of_le_of_lt (Nat.sub_le _ _) t.isLt⟩

theorem outsAt_congr (c : Dev nD) {n n' : ℕ} (e : n = n') (h : n < cfg1.N) (h' : n' < cfg1.N) :
    outsAt V c n h = outsAt V c n' h' := by
  subst e; rfl

/-- After a first step the accumulator is the block product added to zero. -/
theorem acc_first (c : Dev nD) (t : Fin cfg1.N) (h0 : t.val % 4 = 0) :
    (outsAt V c t.val t.isLt).2 = k1_pay2 (iblk V c 0 t) (iblk V c 1 t) (k1_pay1 (F := F)) := by
  have h1 : ¬t.val % 4 = 3 := by omega
  rw [outsAt_first V c t h0 h1,
    accFirst_eq c (grid1.coords t) (ms0 t) (hs0 t) (ms1 t) (hs1 t) (ms2 t) (hs2 t) (ms3 t) (hs3 t) accM (Memref.isWhole_whole _) ((first_iff t).mpr h0) (fun h => h1 ((last_iff t).mp h)) (iblk V c 0 t) (iblk V c 1 t) (iblk V c 2 t)]

/-- After a middle step it is the block product added to what the point before left. -/
theorem acc_mid (c : Dev nD) (t : Fin cfg1.N) (h0 : ¬t.val % 4 = 0) (h1 : ¬t.val % 4 = 3) :
    (outsAt V c t.val t.isLt).2 = k1_pay2 (iblk V c 0 t) (iblk V c 1 t) (outsAt V c (t.val - 1) (Nat.lt_of_le_of_lt (Nat.sub_le _ _) t.isLt)).2 := by
  rw [outsAt_mid V c t h0 h1,
    accMid_eq c (grid1.coords t) (ms0 t) (hs0 t) (ms1 t) (hs1 t) (ms2 t) (hs2 t) (ms3 t) (hs3 t) accM (Memref.isWhole_whole _) (fun h => h0 ((first_iff t).mp h)) (fun h => h1 ((last_iff t).mp h)) (iblk V c 0 t) (iblk V c 1 t) (iblk V c 2 t)]

/-- After a last step likewise, and the output block is that accumulator plus the bias row. -/
theorem outs_last (c : Dev nD) (t : Fin cfg1.N) (h1 : t.val % 4 = 3) :
    outsAt V c t.val t.isLt
      = (k1_pay3 (k1_pay2 (iblk V c 0 t) (iblk V c 1 t) (outsAt V c (t.val - 1) (Nat.lt_of_le_of_lt (Nat.sub_le _ _) t.isLt)).2) (iblk V c 2 t),
         k1_pay2 (iblk V c 0 t) (iblk V c 1 t) (outsAt V c (t.val - 1) (Nat.lt_of_le_of_lt (Nat.sub_le _ _) t.isLt)).2) := by
  have h0 : ¬t.val % 4 = 0 := by omega
  rw [outsAt_last V c t h0 h1,
    outLast_eq c (grid1.coords t) (ms0 t) (hs0 t) (ms1 t) (hs1 t) (ms2 t) (hs2 t) (ms3 t) (hs3 t) accM (Memref.isWhole_whole _) (fun h => h0 ((first_iff t).mp h)) ((last_iff t).mpr h1) (iblk V c 0 t) (iblk V c 1 t) (iblk V c 2 t),
    accLast_eq c (grid1.coords t) (ms0 t) (hs0 t) (ms1 t) (hs1 t) (ms2 t) (hs2 t) (ms3 t) (hs3 t) accM (Memref.isWhole_whole _) (fun h => h0 ((first_iff t).mp h)) ((last_iff t).mpr h1) (iblk V c 0 t) (iblk V c 1 t) (iblk V c 2 t)]

/-- THE BLOCK WRITTEN BACK at the fourth point `t` of a contraction: the bias block added to four accumulation steps
    over the input blocks of the points `t - 3, …, t`, from zero. -/
theorem after3_last (c : Dev nD) (t : Fin cfg1.N) (h : t.val % 4 = 3) :
    (dat V c).after 3 t
      = k1_pay3 (k1_pay2 (iblk V c 0 t) (iblk V c 1 t)
          (k1_pay2 (iblk V c 0 (back t 1)) (iblk V c 1 (back t 1))
            (k1_pay2 (iblk V c 0 (back t 2)) (iblk V c 1 (back t 2))
              (k1_pay2 (iblk V c 0 (back t 3)) (iblk V c 1 (back t 3)) (k1_pay1 (F := F))))))
          (iblk V c 2 t) := by
  have e1 : (outsAt V c (t.val - 1) (Nat.lt_of_le_of_lt (Nat.sub_le _ _) t.isLt)).2
      = k1_pay2 (iblk V c 0 (back t 1)) (iblk V c 1 (back t 1)) (outsAt V c ((back t 1).val - 1) (Nat.lt_of_le_of_lt (Nat.sub_le _ _) (back t 1).isLt)).2 :=
    acc_mid V c (back t 1) (by show ¬(t.val - 1) % 4 = 0; omega) (by show ¬(t.val - 1) % 4 = 3; omega)
  have e2 : (outsAt V c ((back t 1).val - 1) (Nat.lt_of_le_of_lt (Nat.sub_le _ _) (back t 1).isLt)).2
      = k1_pay2 (iblk V c 0 (back t 2)) (iblk V c 1 (back t 2)) (outsAt V c ((back t 2).val - 1) (Nat.lt_of_le_of_lt (Nat.sub_le _ _) (back t 2).isLt)).2 :=
    (congrArg Prod.snd (outsAt_congr V c (show (back t 1).val - 1 = (back t 2).val from by show t.val - 1 - 1 = t.val - 2; omega) _ (back t 2).isLt)).trans
      (acc_mid V c (back t 2) (by show ¬(t.val - 2) % 4 = 0; omega) (by show ¬(t.val - 2) % 4 = 3; omega))
  have e3 : (outsAt V c ((back t 2).val - 1) (Nat.lt_of_le_of_lt (Nat.sub_le _ _) (back t 2).isLt)).2
      = k1_pay2 (iblk V c 0 (back t 3)) (iblk V c 1 (back t 3)) (k1_pay1 (F := F)) :=
    (congrArg Prod.snd (outsAt_congr V c (show (back t 2).val - 1 = (back t 3).val from by show t.val - 2 - 1 = t.val - 3; omega) _ (back t 3).isLt)).trans
      (acc_first V c (back t 3) (by show (t.val - 3) % 4 = 0; omega))
  rw [after_3, outs_last V c t h, e1, e2, e3]

end Cert.KernelIdeal.R1

end
-- ==== Proof.Val.Tiles1.lean ====
/-
  The second region, one output tile at a time.

  The region walks 256 grid points t = (i * 4 + j) * 4 + k: i runs over the 16 row blocks of the input, j over the
  4 row blocks of the weight, k over the 4 runs of 1024 along the contraction. Point t reads the input's block
  (i, k), the weight's block (j, k) and the bias's block (0, j); the four points of one (i, j) add their block
  products onto an accumulator reset at k = 0, and the last of them writes the accumulator plus the bias as block
  (i, j) of the result. An element of a block is the element of the array at the block index times 1024 plus its
  own coordinate, and four runs of 1024 make the whole contraction (Spec's law of sums), so the written tile is
  its block of ONE matrix: row r of the input against row o of the weight, plus the bias at o.
-/
import proofs.«176474_j44985487458785_2_alg».proof.Proof.Gen.KernelIdeal.Launch
import proofs.«176474_j44985487458785_2_alg».proof.Proof.Gen.KernelIdeal.Points
import proofs.«176474_j44985487458785_2_alg».proof.Proof.Val.Spec
import proofs.«176474_j44985487458785_2_alg».proof.Proof.Val.Payload
import Idealize.ShloMosaic.Lib.Pipeline.Value

noncomputable section

open scoped BigOperators

namespace Cert.Val

open Cert.KernelIdeal Cert.KernelIdeal.Gen
open Idealize.ShloMosaic Idealize.ShloMosaic.TcCoe Idealize.ShloMosaic.ValueIdx Idealize.SL.Sem
open Idealize.ShloMosaic.Pipeline (Dat)

/-! ## The result as one matrix, and one tile of it over variables -/

/-- Row r of the input against row o of the weight, plus the bias at o. -/
def linArr (xa : S16384x4096.Idx → EReal) (wa : S4096x4096.Idx → EReal) (ba : S1x4096.Idx → EReal) :
    S16384x4096.Idx → EReal := fun j =>
  (∑ i : Fin 4096, xa (ix2 (⟨(j 0).val, (j 0).isLt⟩ : Fin 16384) i) * wa (ix2 (⟨(j 1).val, (j 1).isLt⟩ : Fin 4096) i))
    + ba (ix2 (0 : Fin 1) (⟨(j 1).val, (j 1).isLt⟩ : Fin 4096))

theorem linArr_ix2 (xa : S16384x4096.Idx → EReal) (wa : S4096x4096.Idx → EReal) (ba : S1x4096.Idx → EReal)
    (r : Fin 16384) (o : Fin 4096) :
    linArr xa wa ba (ix2 r o) = (∑ i : Fin 4096, xa (ix2 r i) * wa (ix2 o i)) + ba (ix2 (0 : Fin 1) o) := rfl

/-- If the four input blocks are runs 0 … 3 of rows 1024 I … of the input, the four weight blocks runs 0 … 3 of
    rows 1024 J … of the weight, and the bias block columns 1024 J … of the bias, then four accumulation steps
    from zero and the bias step leave, at an element of the tile, the matrix at the element 1024 I rows and 1024 J
    columns further on. -/
theorem tile_eq (xa : S16384x4096.Idx → EReal) (wa : S4096x4096.Idx → EReal) (ba : S1x4096.Idx → EReal)
    (x0 x1 x2 x3 : Vec Ideal S1024x1024 .f32) (w0 w1 w2 w3 : Vec Ideal S1024x1024 .bf16) (b : Vec Ideal S1x1024 .f32)
    (I J : ℕ) (hI : I < 16) (hJ : J < 4)
    (hx0 : ∀ p k : Fin 1024, x0 (ix2 p k) = xa (ix2 (⟨I * 1024 + p.val, by omega⟩ : Fin 16384) (at4 0 k)))
    (hx1 : ∀ p k : Fin 1024, x1 (ix2 p k) = xa (ix2 (⟨I * 1024 + p.val, by omega⟩ : Fin 16384) (at4 1 k)))
    (hx2 : ∀ p k : Fin 1024, x2 (ix2 p k) = xa (ix2 (⟨I * 1024 + p.val, by omega⟩ : Fin 16384) (at4 2 k)))
    (hx3 : ∀ p k : Fin 1024, x3 (ix2 p k) = xa (ix2 (⟨I * 1024 + p.val, by omega⟩ : Fin 16384) (at4 3 k)))
    (hw0 : ∀ q k : Fin 1024, w0 (ix2 q k) = wa (ix2 (⟨J * 1024 + q.val, by omega⟩ : Fin 4096) (at4 0 k)))
    (hw1 : ∀ q k : Fin 1024, w1 (ix2 q k) = wa (ix2 (⟨J * 1024 + q.val, by omega⟩ : Fin 4096) (at4 1 k)))
    (hw2 : ∀ q k : Fin 1024, w2 (ix2 q k) = wa (ix2 (⟨J * 1024 + q.val, by omega⟩ : Fin 4096) (at4 2 k)))
    (hw3 : ∀ q k : Fin 1024, w3 (ix2 q k) = wa (ix2 (⟨J * 1024 + q.val, by omega⟩ : Fin 4096) (at4 3 k)))
    (hb : ∀ q : Fin 1024, b (ix2 (0 : Fin 1) q) = ba (ix2 (0 : Fin 1) (⟨J * 1024 + q.val, by omega⟩ : Fin 4096)))
    (y : S1024x1024.Idx) (i : S16384x4096.Idx) (hi0 : (i 0).val = I * 1024 + (y 0).val)
    (hi1 : (i 1).val = J * 1024 + (y 1).val) :
    k1_pay3 (F := Ideal) (k1_pay2 x3 w3 (k1_pay2 x2 w2 (k1_pay2 x1 w1 (k1_pay2 x0 w0 (k1_pay1 (F := Ideal)))))) b y
      = linArr xa wa ba i := by
  obtain ⟨p, q, rfl⟩ : ∃ (p q : Fin 1024), y = ix2 p q := ⟨y 0, y 1, eq_ix2 y⟩
  have e0 : (⟨(i 0).val, (i 0).isLt⟩ : Fin 16384) = ⟨I * 1024 + p.val, by omega⟩ := Fin.ext hi0
  have e1 : (⟨(i 1).val, (i 1).isLt⟩ : Fin 4096) = ⟨J * 1024 + q.val, by omega⟩ := Fin.ext hi1
  unfold linArr
  rw [e0, e1, k1_pay3_apply, k1_fold4_apply, hb]
  simp only [hx0, hx1, hx2, hx3, hw0, hw1, hw2, hw3]
  exact congrArg (· + ba (ix2 (0 : Fin 1) (⟨J * 1024 + q.val, by omega⟩ : Fin 4096)))
    (fold4_eq_sum fun k => xa (ix2 (⟨I * 1024 + p.val, by omega⟩ : Fin 16384) k) * wa (ix2 (⟨J * 1024 + q.val, by omega⟩ : Fin 4096) k))

/-! ## The blocks of the region's windows -/

variable (V : (c : Dev nD) → (b : Ref sig .tc) → Buf (Elt Ideal) ((c : Thread nD τ).loc b))

/-- The block indices over the 256 points t = (i * 4 + j) * 4 + k: the input at (i, k), the weight at (j, k), the
    bias at (0, j), the result at (i, j). -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The input's block at point t, read at (p, k), is the input at row (t / 16) * 1024 + p and column
    (t % 4) * 1024 + k. -/
theorem blk1_0 (c : Dev nD) (t : Fin cfg1.N) (p k : Fin 1024) (r : Fin 16384) (s : Fin 4096)
    (hr : r.val = t.val / 16 * 1024 + p.val) (hs : s.val = t.val % 4 * 1024 + k.val) :
    (((cfg1.win 0).blk t).view.read (Elt Ideal) (V c (Pipeline.arrRef spec1 0)) : Vec Ideal S1024x1024 .f32) (ix2 p k)
      = (V c main_v1 : S16384x4096.Idx → EReal) (ix2 r s) := by
  obtain ⟨e00, e01, -⟩ := idx_facts1 t
  show V c main_v1 (((cfg1.win 0).blk t).view.emb (ix2 p k)) = V c main_v1 _
  refine congrArg (V c main_v1) (funext fun a => Fin.ext ?_)
  match a with
  | ⟨0, _⟩ => show win1_0.index t (0 : Fin 2) * 1024 + 1 * p.val = r.val; omega
  | ⟨1, _⟩ => show win1_0.index t (1 : Fin 2) * 1024 + 1 * k.val = s.val; omega

/-- The weight's block at point t, read at (q, k), is the weight at row (t / 4 % 4) * 1024 + q and column
    (t % 4) * 1024 + k. -/
theorem blk1_1 (c : Dev nD) (t : Fin cfg1.N) (q k : Fin 1024) (r : Fin 4096) (s : Fin 4096)
    (hr : r.val = t.val / 4 % 4 * 1024 + q.val) (hs : s.val = t.val % 4 * 1024 + k.val) :
    (((cfg1.win 1).blk t).view.read (Elt Ideal) (V c (Pipeline.arrRef spec1 1)) : Vec Ideal S1024x1024 .bf16) (ix2 q k)
      = (V c main_v0 : S4096x4096.Idx → EReal) (ix2 r s) := by
  obtain ⟨-, -, e10, e11, -⟩ := idx_facts1 t
  show V c main_v0 (((cfg1.win 1).blk t).view.emb (ix2 q k)) = V c main_v0 _
  refine congrArg (V c main_v0) (funext fun a => Fin.ext ?_)
  match a with
  | ⟨0, _⟩ => show win1_1.index t (0 : Fin 2) * 1024 + 1 * q.val = r.val; omega
  | ⟨1, _⟩ => show win1_1.index t (1 : Fin 2) * 1024 + 1 * k.val = s.val; omega

/-- The bias's block at point t, read at (0, q), is the bias at column (t / 4 % 4) * 1024 + q. -/
theorem blk1_2 (c : Dev nD) (t : Fin cfg1.N) (q : Fin 1024) (s : Fin 4096) (hs : s.val = t.val / 4 % 4 * 1024 + q.val) :
    (((cfg1.win 2).blk t).view.read (Elt Ideal) (V c (Pipeline.arrRef spec1 2)) : Vec Ideal S1x1024 .f32) (ix2 (0 : Fin 1) q)
      = (V c main_v2 : S1x4096.Idx → EReal) (ix2 (0 : Fin 1) s) := by
  obtain ⟨-, -, -, -, e20, e21, -⟩ := idx_facts1 t
  show V c main_v2 (((cfg1.win 2).blk t).view.emb (ix2 (0 : Fin 1) q)) = V c main_v2 _
  refine congrArg (V c main_v2) (funext fun a => Fin.ext ?_)
  match a with
  | ⟨0, _⟩ => show win1_2.index t (0 : Fin 2) * 1 + 1 * 0 = 0; omega
  | ⟨1, _⟩ => show win1_2.index t (1 : Fin 2) * 1024 + 1 * q.val = s.val; omega

/-- An index of the result is in point t's block iff each coordinate is in the block's range on its axis. -/
theorem mem_blk3 (t : Fin cfg1.N) (i : S16384x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Element (r, o) of the result lies in the block written at the last point of (r / 1024, o / 1024). -/
theorem cover3 (i : S16384x4096.Idx) :
    ∃ t : Fin cfg1.N, (cfg1.win 3).flush t = true ∧ i ∈ ((cfg1.win 3).blk t).view.set := by
  have hN : cfg1.N = 256 := N_1
  have hi0 : (i 0).val < 16384 := (i 0).isLt
  have hi1 : (i 1).val < 4096 := (i 1).isLt
  have hlt : ((i 0).val / 1024 * 4 + (i 1).val / 1024) * 4 + 3 < cfg1.N := by omega
  refine ⟨⟨((i 0).val / 1024 * 4 + (i 1).val / 1024) * 4 + 3, hlt⟩, (flush1_3 _).mpr ?_, ?_⟩
  · show (((i 0).val / 1024 * 4 + (i 1).val / 1024) * 4 + 3) % 4 = 3; omega
  · obtain ⟨-, -, -, -, -, -, e30, e31⟩ := idx_facts1 ⟨((i 0).val / 1024 * 4 + (i 1).val / 1024) * 4 + 3, hlt⟩
    rw [mem_blk3]
    intro a
    match a with
    | ⟨0, _⟩ =>
      show win1_3.index ⟨_, hlt⟩ (0 : Fin 2) * 1024 ≤ (i 0).val ∧ (i 0).val < win1_3.index ⟨_, hlt⟩ (0 : Fin 2) * 1024 + 1024
      rw [e30]
      show (((i 0).val / 1024 * 4 + (i 1).val / 1024) * 4 + 3) / 16 * 1024 ≤ (i 0).val ∧ (i 0).val < (((i 0).val / 1024 * 4 + (i 1).val / 1024) * 4 + 3) / 16 * 1024 + 1024
      omega
    | ⟨1, _⟩ =>
      show win1_3.index ⟨_, hlt⟩ (1 : Fin 2) * 1024 ≤ (i 1).val ∧ (i 1).val < win1_3.index ⟨_, hlt⟩ (1 : Fin 2) * 1024 + 1024
      rw [e31]
      show (((i 0).val / 1024 * 4 + (i 1).val / 1024) * 4 + 3) / 4 % 4 * 1024 ≤ (i 1).val ∧ (i 1).val < (((i 0).val / 1024 * 4 + (i 1).val / 1024) * 4 + 3) / 4 % 4 * 1024 + 1024
      omega

end Cert.Val

end
-- ==== Proof.Val.Blocks1.lean ====
/-
  The matrix the second region leaves.

  Only the last point of each four-point contraction writes a block back, and what it holds is the bias row added
  to four accumulation steps from zero over the four consecutive points' input and weight blocks. Those points share
  their row block of the input, their row block of the weight and their block of the bias, and walk the four runs
  of the contraction in order; so the written block is its tile of ONE matrix: row r of the input against row o of
  the weight, plus the bias at o. The 16 × 4 tiles cover the matrix (element (r, o) lies in the tile written at the
  last point of (r / 1024, o / 1024)), so the array ends holding that matrix.
-/
import proofs.«176474_j44985487458785_2_alg».proof.Proof.KI.MatmulPieces
import proofs.«176474_j44985487458785_2_alg».proof.Proof.Val.Tiles1

noncomputable section

open scoped BigOperators

namespace Cert.Val

open Cert.KernelIdeal Cert.KernelIdeal.Gen Cert.KernelIdeal.R1
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row r of the input against row o of the weight, plus the bias at o, of the three arrays as the region finds them. -/
def outMat (c : Dev nD) : S16384x4096.Idx → EReal := linArr (V c main_v1) (V c main_v0) (V c main_v2)

/-- What the last point of a contraction writes back is its tile of that matrix. -/
theorem flushed3_eq (c : Dev nD) (t : Fin cfg1.N) (hf : (cfg1.win 3).flush t = true) :
    (dat (F := Ideal) V c).flushed 3 t = ((cfg1.win 3).blk t).view.read (Elt Ideal) (outMat V c) := by
  have hN : cfg1.N = 256 := N_1
  have h3 : t.val % 4 = 3 := (flush1_3 t).mp hf
  have ht : t.val < 256 := by have := t.isLt; omega
  obtain ⟨-, -, -, -, -, -, e30, e31⟩ := idx_facts1 t
  have hx0 : ∀ p k : Fin 1024, (iblk V c 0 (back t 3) : Vec Ideal S1024x1024 .f32) (ix2 p k)
      = (V c main_v1 : S16384x4096.Idx → EReal) (ix2 (⟨t.val / 16 * 1024 + p.val, by omega⟩ : Fin 16384) (at4 0 k)) := fun p k =>
    blk1_0 V c (back t 3) p k _ _ (by show t.val / 16 * 1024 + p.val = (t.val - 3) / 16 * 1024 + p.val; omega)
      (by show 0 * 1024 + k.val = (t.val - 3) % 4 * 1024 + k.val; omega)
  have hx1 : ∀ p k : Fin 1024, (iblk V c 0 (back t 2) : Vec Ideal S1024x1024 .f32) (ix2 p k)
      = (V c main_v1 : S16384x4096.Idx → EReal) (ix2 (⟨t.val / 16 * 1024 + p.val, by omega⟩ : Fin 16384) (at4 1 k)) := fun p k =>
    blk1_0 V c (back t 2) p k _ _ (by show t.val / 16 * 1024 + p.val = (t.val - 2) / 16 * 1024 + p.val; omega)
      (by show 1 * 1024 + k.val = (t.val - 2) % 4 * 1024 + k.val; omega)
  have hx2 : ∀ p k : Fin 1024, (iblk V c 0 (back t 1) : Vec Ideal S1024x1024 .f32) (ix2 p k)
      = (V c main_v1 : S16384x4096.Idx → EReal) (ix2 (⟨t.val / 16 * 1024 + p.val, by omega⟩ : Fin 16384) (at4 2 k)) := fun p k =>
    blk1_0 V c (back t 1) p k _ _ (by show t.val / 16 * 1024 + p.val = (t.val - 1) / 16 * 1024 + p.val; omega)
      (by show 2 * 1024 + k.val = (t.val - 1) % 4 * 1024 + k.val; omega)
  have hx3 : ∀ p k : Fin 1024, (iblk V c 0 t : Vec Ideal S1024x1024 .f32) (ix2 p k)
      = (V c main_v1 : S16384x4096.Idx → EReal) (ix2 (⟨t.val / 16 * 1024 + p.val, by omega⟩ : Fin 16384) (at4 3 k)) := fun p k =>
    blk1_0 V c t p k _ _ rfl (by show 3 * 1024 + k.val = t.val % 4 * 1024 + k.val; omega)
  have hw0 : ∀ q k : Fin 1024, (iblk V c 1 (back t 3) : Vec Ideal S1024x1024 .bf16) (ix2 q k)
      = (V c main_v0 : S4096x4096.Idx → EReal) (ix2 (⟨t.val / 4 % 4 * 1024 + q.val, by omega⟩ : Fin 4096) (at4 0 k)) := fun q k =>
    blk1_1 V c (back t 3) q k _ _ (by show t.val / 4 % 4 * 1024 + q.val = (t.val - 3) / 4 % 4 * 1024 + q.val; omega)
      (by show 0 * 1024 + k.val = (t.val - 3) % 4 * 1024 + k.val; omega)
  have hw1 : ∀ q k : Fin 1024, (iblk V c 1 (back t 2) : Vec Ideal S1024x1024 .bf16) (ix2 q k)
      = (V c main_v0 : S4096x4096.Idx → EReal) (ix2 (⟨t.val / 4 % 4 * 1024 + q.val, by omega⟩ : Fin 4096) (at4 1 k)) := fun q k =>
    blk1_1 V c (back t 2) q k _ _ (by show t.val / 4 % 4 * 1024 + q.val = (t.val - 2) / 4 % 4 * 1024 + q.val; omega)
      (by show 1 * 1024 + k.val = (t.val - 2) % 4 * 1024 + k.val; omega)
  have hw2 : ∀ q k : Fin 1024, (iblk V c 1 (back t 1) : Vec Ideal S1024x1024 .bf16) (ix2 q k)
      = (V c main_v0 : S4096x4096.Idx → EReal) (ix2 (⟨t.val / 4 % 4 * 1024 + q.val, by omega⟩ : Fin 4096) (at4 2 k)) := fun q k =>
    blk1_1 V c (back t 1) q k _ _ (by show t.val / 4 % 4 * 1024 + q.val = (t.val - 1) / 4 % 4 * 1024 + q.val; omega)
      (by show 2 * 1024 + k.val = (t.val - 1) % 4 * 1024 + k.val; omega)
  have hw3 : ∀ q k : Fin 1024, (iblk V c 1 t : Vec Ideal S1024x1024 .bf16) (ix2 q k)
      = (V c main_v0 : S4096x4096.Idx → EReal) (ix2 (⟨t.val / 4 % 4 * 1024 + q.val, by omega⟩ : Fin 4096) (at4 3 k)) := fun q k =>
    blk1_1 V c t q k _ _ rfl (by show 3 * 1024 + k.val = t.val % 4 * 1024 + k.val; omega)
  have hb : ∀ q : Fin 1024, (iblk V c 2 t : Vec Ideal S1x1024 .f32) (ix2 (0 : Fin 1) q)
      = (V c main_v2 : S1x4096.Idx → EReal) (ix2 (0 : Fin 1) (⟨t.val / 4 % 4 * 1024 + q.val, by omega⟩ : Fin 4096)) := fun q =>
    blk1_2 V c t q _ rfl
  show (cfg1.win 3).cut (grid1.coords t) ((dat (F := Ideal) V c).after 3 t) = _
  rw [after3_last V c t h3]
  funext y
  show k1_pay3 (F := Ideal) (k1_pay2 (iblk V c 0 t) (iblk V c 1 t)
        (k1_pay2 (iblk V c 0 (back t 1)) (iblk V c 1 (back t 1))
          (k1_pay2 (iblk V c 0 (back t 2)) (iblk V c 1 (back t 2))
            (k1_pay2 (iblk V c 0 (back t 3)) (iblk V c 1 (back t 3)) (k1_pay1 (F := Ideal))))))
        (iblk V c 2 t) y
      = outMat V c (((cfg1.win 3).blk t).view.emb y)
  unfold outMat
  exact tile_eq (V c main_v1) (V c main_v0) (V c main_v2) _ _ _ _ _ _ _ _ _ (t.val / 16) (t.val / 4 % 4)
    (by omega) (by omega) hx0 hx1 hx2 hx3 hw0 hw1 hw2 hw3 hb y _
    (by show win1_3.index t (0 : Fin 2) * 1024 + 1 * (y 0).val = t.val / 16 * 1024 + (y 0).val; omega)
    (by show win1_3.index t (1 : Fin 2) * 1024 + 1 * (y 1).val = t.val / 4 % 4 * 1024 + (y 1).val; omega)

/-- After the second region the result array holds, at (r, o), row r of the input against row o of the weight plus
    the bias at o. -/
theorem out_arr (c : Dev nD) : (dat (F := Ideal) V c).arrAt 3 cfg1.N = outMat V c :=
  (dat (F := Ideal) V c).arrAt_eq_of_cover 3 (outMat V c) (fun t hf => flushed3_eq V c t hf) cover3

end Cert.Val

end
-- ==== Proof.Val.Glue.lean ====
/-
  The host's three reshapes around the two regions, read at an index.

  The program flattens the input [8, 2048, 4096] to [16384, 4096] (row b * 2048 + t), views the bias [4096] as one row
  [1, 4096], and unflattens the result [16384, 4096] to [8, 2048, 4096]. With the second region's matrix (row r of
  the flattened input against row o of the weight, plus the bias row at o) over the first region's patched weight,
  the unflattened result is the specification's array of the six arguments: the reshapes only rename indices.
-/
import proofs.«176474_j44985487458785_2_alg».proof.Proof.Val.Spec
import proofs.«176474_j44985487458785_2_alg».proof.Proof.Val.Tiles1
import Idealize.ShloMosaic.Lib.ValueLayout
import Idealize.ShloMosaic.Lib.Pipeline.Value

noncomputable section

open scoped BigOperators

namespace Cert.Val

open Cert.KernelIdeal Cert.KernelIdeal.Gen
open Idealize.ShloMosaic Idealize.ShloMosaic.ValueIdx

/-- The flattened input at (b * 2048 + t, i) is the input at (b, t, i). -/
theorem flat_input_apply (a5 : S8x2048x4096.Idx → EReal) (h : S8x2048x4096.ShapeCasts S16384x4096)
    (b : Fin 8) (t : Fin 2048) (i : Fin 4096) (r : Fin 16384) (hr : r.val = b.val * 2048 + t.val) :
    shapeCast S16384x4096 a5 h (ix2 r i) = a5 (ix3 b t i) :=
  shapeCast_apply a5 h _ _ (by
    rw [Shape.rowMajor_val_three, Shape.rowMajor_val_two]
    show (b.val * 2048 + t.val) * 4096 + i.val = r.val * 4096 + i.val
    rw [hr])

/-- The result unflattened, the second region's matrix over the flattened input, the patched weight and the bias
    row, is the specification's array. -/
theorem host_glue (a0 : S4096x128x32.Idx → BitVec 32) (a1 : S4096x128.Idx → EReal) (a2 : S4096x16.Idx → EReal)
    (a3 : S16x4096.Idx → EReal) (a4 : S4096.Idx → EReal) (a5 : S8x2048x4096.Idx → EReal)
    (h1 : S8x2048x4096.ShapeCasts S16384x4096) (h2 : S4096.ShapeCasts S1x4096)
    (h3 : S16384x4096.ShapeCasts S8x2048x4096) :
    shapeCast S8x2048x4096
        (linArr (shapeCast S16384x4096 a5 h1)
          (fun j : S4096x4096.Idx => wt a0 a1 a2 a3 ⟨(j 0).val, (j 0).isLt⟩ ⟨(j 1).val, (j 1).isLt⟩)
          (shapeCast S1x4096 a4 h2)) h3
      = outArr a0 a1 a2 a3 a4 a5 := by
  funext j
  obtain ⟨b, t, o, rfl⟩ : ∃ (b : Fin 8) (t : Fin 2048) (o : Fin 4096), j = ix3 b t o := ⟨j 0, j 1, j 2, eq_ix3 j⟩
  have hr : b.val * 2048 + t.val < 16384 := by omega
  rw [outArr_ix3]
  refine (shapeCast_apply _ h3 (ix3 b t o) (ix2 (⟨b.val * 2048 + t.val, hr⟩ : Fin 16384) o) ?_).trans ?_
  · rw [Shape.rowMajor_val_two, Shape.rowMajor_val_three]
    rfl
  · rw [linArr_ix2]
    unfold out
    refine congrArg₂ (· + ·) (Finset.sum_congr rfl fun i _ => ?_) (shapeCast_a_1a_apply a4 h2 0 o)
    exact congrArg₂ (· * ·) (flat_input_apply a5 h1 b t i _ rfl) rfl

end Cert.Val

end
-- ==== Proof.Val.Compose.lean ====
/-
  The kernel program's result is the specification's array.

  The contents of the buffers at each boundary of the program are a fold from the launch memory: the first region
  leaves the patched weight in its output array, the two reshapes flatten the input and view the bias as a row, the
  second region leaves row-by-row products plus bias in its output array, and the last reshape unflattens it. Read
  back through that fold, the result buffer holds the specification's array of the six argument arrays as launched.
-/
import proofs.«176474_j44985487458785_2_alg».proof.Proof.KI.Run
import proofs.«176474_j44985487458785_2_alg».proof.Proof.Val.Blocks0
import proofs.«176474_j44985487458785_2_alg».proof.Proof.Val.Blocks1
import proofs.«176474_j44985487458785_2_alg».proof.Proof.Val.Glue

noncomputable section

open scoped BigOperators

namespace Cert.Val

open Cert.KernelIdeal Cert.KernelIdeal.Gen Cert.KernelIdeal.Run
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- At the second region's entry the flattened-input buffer holds the input, flattened. -/
theorem entry_input (c : Dev nD) :
    (V2 m c main_v1 : S16384x4096.Idx → EReal)
      = shapeCast S16384x4096 (m ((c : Thread nD τ).loc main_arg5) : S8x2048x4096.Idx → EReal) shapeCasts_S8x2048x4096_S16384x4096 := by
  show StableHlo.after hostOps1 (W1 m c) (Proc.devRef .tc main_v1) = _
  after_results
  rw [W1_of_ne m c main_arg5 (by decide)]
  rfl

/-- At the second region's entry the bias-row buffer holds the bias, as one row. -/
theorem entry_bias (c : Dev nD) :
    (V2 m c main_v2 : S1x4096.Idx → EReal)
      = shapeCast S1x4096 (m ((c : Thread nD τ).loc main_arg4) : S4096.Idx → EReal) shapeCasts_S4096_S1x4096 := by
  show StableHlo.after hostOps1 (W1 m c) (Proc.devRef .tc main_v2) = _
  after_results
  rw [W1_of_ne m c main_arg4 (by decide)]
  rfl

/-- At the second region's entry the weight buffer holds what the first region left: the patched weight. -/
theorem entry_weight (c : Dev nD) : (V2 m c main_v0 : S4096x4096.Idx → EReal) = weightArr (V0 m) c := by
  show W2 m c (Proc.devRef .tc main_v0) = _
  rw [W2_keep m c main_v0 (by decide) (by decide)]
  exact (W1_arr m c 4).trans (weight_arr (V0 m) c)

/-- At the return the result buffer holds the specification's array of the six arguments as launched. -/
theorem kernel_result (c : Dev nD) :
    (W4 (F := Ideal) m c (Proc.devRef .tc main_v4) : S8x2048x4096.Idx → EReal)
      = outArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e4 : (W4 (F := Ideal) m c (Proc.devRef .tc main_v4) : S8x2048x4096.Idx → EReal)
      = shapeCast S8x2048x4096 (W3 m c (Proc.devRef .tc main_v3) : S16384x4096.Idx → EReal) shapeCasts_S16384x4096_S8x2048x4096 := by
    show StableHlo.after hostOps2 (W3 m c) (Proc.devRef .tc main_v4) = _
    after_results
    rfl
  have e3 : (W3 m c (Proc.devRef .tc main_v3) : S16384x4096.Idx → EReal) = outMat (V2 m) c :=
    (W3_arr m c 3).trans (out_arr (V2 m) c)
  rw [e4, e3]
  unfold outMat
  rw [entry_input m c, entry_weight m c, entry_bias m c]
  unfold weightArr
  exact host_glue _ _ _ _ _ _ _ _ _

end Cert.Val

end
-- ==== Proof.lean ====
/-
  The kernel computes a linear layer over a block-dequantised, low-rank-patched weight:
      w[o,i]   = scales[o, i/32] · (q[o, i/32, i%32] − 128) + ½ · Σ_r up[o,r] · down[r,i]
      out[b,s,o] = Σ_i x[b,s,i] · w[o,i] + bias[o]
  in two pipelined regions — the first writes w block by block, the second multiplies 1024-blocks of the flattened
  activations with 1024-blocks of w, accumulating over the four blocks of the contracted axis from zero and adding the
  bias row at the fourth — with reshapes between and after. The reference computes the same two formulas with one
  whole contraction each. Over the extended reals the two agree index by index: a format change is the identity, and
  a sum over 4096 terms is the sum of its four runs of 1024 added up from zero (reindexing and associativity of +; no
  finiteness of the inputs is used). The frames (every execution ends, nothing faults, the arguments end unchanged)
  come from the run of @main as a list of segments; the kernel's result from the same run, each region's output read
  off its write-backs; the reference's result from its operations composed.
-/
import proofs.«176474_j44985487458785_2_alg».proof.Defs
import proofs.«176474_j44985487458785_2_alg».proof.Proof.Gen.Kernel
import proofs.«176474_j44985487458785_2_alg».proof.Proof.Gen.KernelIdeal
import proofs.«176474_j44985487458785_2_alg».proof.Proof.Gen.ReferenceIdeal
import proofs.«176474_j44985487458785_2_alg».proof.Proof.Gen.Pre_finite_inputs
import proofs.«176474_j44985487458785_2_alg».proof.Proof.Gen.ReferenceIdeal.Run
import proofs.«176474_j44985487458785_2_alg».proof.Proof.Gen.ReferenceIdeal.Read
import proofs.«176474_j44985487458785_2_alg».proof.Proof.K.Run
import proofs.«176474_j44985487458785_2_alg».proof.Proof.KI.Run
import proofs.«176474_j44985487458785_2_alg».proof.Proof.Val.RefValue
import proofs.«176474_j44985487458785_2_alg».proof.Proof.Val.Compose
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Run.frame (F := Bits) m ρ

/-- So does the kernel read over the extended reals. -/
theorem frame_ki : Cert.frame_KernelIdeal := fun m ρ _ => Cert.KernelIdeal.Run.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's array of the argument arrays: the kernel's last buffer read through
    its segments, the reference's composed term read operation by operation; the arguments agree by hypothesis. -/
theorem algebraic : Cert.algebraic_KernelIdeal_ReferenceIdeal := by
  intro m ρ m' ρ' _ hagree
  refine ⟨fun c => Cert.Val.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Run.mem_uc Cert.KernelIdeal.main_v4 (by decide))).trans (Cert.Val.kernel_result m c),
       (h c _ (Cert.KernelIdeal.Run.mem_uc Cert.KernelIdeal.main_arg0 (by decide))).trans (Cert.KernelIdeal.Run.W4_main_arg0 m c),
       (h c _ (Cert.KernelIdeal.Run.mem_uc Cert.KernelIdeal.main_arg1 (by decide))).trans (Cert.KernelIdeal.Run.W4_main_arg1 m c),
       (h c _ (Cert.KernelIdeal.Run.mem_uc Cert.KernelIdeal.main_arg2 (by decide))).trans (Cert.KernelIdeal.Run.W4_main_arg2 m c),
       (h c _ (Cert.KernelIdeal.Run.mem_uc Cert.KernelIdeal.main_arg3 (by decide))).trans (Cert.KernelIdeal.Run.W4_main_arg3 m c),
       (h c _ (Cert.KernelIdeal.Run.mem_uc Cert.KernelIdeal.main_arg4 (by decide))).trans (Cert.KernelIdeal.Run.W4_main_arg4 m c),
       (h c _ (Cert.KernelIdeal.Run.mem_uc Cert.KernelIdeal.main_arg5 (by decide))).trans (Cert.KernelIdeal.Run.W4_main_arg5 m c)⟩)
      (Cert.KernelIdeal.Run.run_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Cert.Val.ref_eq_spec,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
